-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : FVec F S64x1 .f32) (main_arg6 : FVec F S1 .f32) (main_arg7 : IVec S2x800000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S800000x64 : Shape := ⟨2, ![800000, 64]⟩
abbrev S2000x1 : Shape := ⟨2, ![2000, 1]⟩
abbrev S1000 : Shape := ⟨1, ![1000]⟩
abbrev S1000x64 : Shape := ⟨2, ![1000, 64]⟩
abbrev S1000x1 : Shape := ⟨2, ![1000, 1]⟩
abbrev S1x1 : Shape := ⟨2, ![1, 1]⟩

abbrev nBuf : Space → Nat
  | .hbm => 160
  | .vmem => 70
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x64, .f32⟩
  | 4 => ⟨S64, .f32⟩
  | 5 => ⟨S64x1, .f32⟩
  | 6 => ⟨S1, .f32⟩
  | 7 => ⟨S2x800000, .i32⟩
  | 8 => ⟨S50000, .i32⟩
  | 9 => ⟨S1x800000, .i32⟩
  | 10 => ⟨S800000, .i32⟩
  | 11 => ⟨S1x800000, .i32⟩
  | 12 => ⟨S800000, .i32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000, .f32⟩
  | 47 => ⟨S50000x1, .f32⟩
  | 48 => ⟨S1x64, .f32⟩
  | 49 => ⟨S1x64, .f32⟩
  | 50 => ⟨S50000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x1, .f32⟩
  | 61 => ⟨S800000x64, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S50000x64, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x1, .f32⟩
  | 79 => ⟨S800000x64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S800000x1, .f32⟩
  | 97 => ⟨S800000x64, .f32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S50000x64, .f32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S800000x1, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S50000x64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S800000x1, .f32⟩
  | 5 => ⟨S800000x64, .f32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S50000x64, .f32⟩
  | 12 => ⟨S_, .f32⟩
  | 13 => ⟨S50000, .f32⟩
  | 14 => ⟨S_, .f32⟩
  | 15 => ⟨S1000, .f32⟩
  | 16 => ⟨S50000x1, .i32⟩
  | 17 => ⟨S1000, .f32⟩
  | 18 => ⟨S_, .f32⟩
  | 19 => ⟨S1000x64, .f32⟩
  | 20 => ⟨S50000x1, .i32⟩
  | 21 => ⟨S1000x64, .f32⟩
  | 22 => ⟨S_, .f32⟩
  | 23 => ⟨S1000, .f32⟩
  | 24 => ⟨S1000, .f32⟩
  | 25 => ⟨S1000x1, .f32⟩
  | 26 => ⟨S1000x64, .f32⟩
  | 27 => ⟨S1000x64, .f32⟩
  | 28 => ⟨S1000x1, .f32⟩
  | 29 => ⟨S1x1, .f32⟩
  | 30 => ⟨S1000x1, .f32⟩
  | 31 => ⟨S1000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x1, .f32⟩
  | .local _ .vmem, ⟨52, _⟩ => ⟨S2000x1, .f32⟩
  | .local _ .vmem, ⟨53, _⟩ => ⟨S1x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S64x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x1, .f32⟩
  | .local _ .vmem, ⟨66, _⟩ => ⟨S2000x1, .f32⟩
  | .local _ .vmem, ⟨67, _⟩ => ⟨S1x64, .f32⟩
  | .local _ .vmem, ⟨68, _⟩ => ⟨S2000x64, .f32⟩
  | .local _ .vmem, ⟨69, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_15 : Ref sig .tc := ⟨.hbm, 105, rfl⟩
abbrev main_v79 : Ref sig .tc := ⟨.hbm, 106, rfl⟩
abbrev main_v80 : Ref sig .tc := ⟨.hbm, 107, rfl⟩
abbrev main_c_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_18 : Ref sig .tc := ⟨.hbm, 123, rfl⟩
abbrev main_v94 : Ref sig .tc := ⟨.hbm, 124, rfl⟩
abbrev main_v95 : Ref sig .tc := ⟨.hbm, 125, rfl⟩
abbrev main_c_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_20 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_21 : Ref sig .tc := ⟨.hbm, 140, rfl⟩
abbrev main_v108 : Ref sig .tc := ⟨.hbm, 141, rfl⟩
abbrev main_cst_22 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_23 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_24 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem2_1 : DmaSem sig := 66
abbrev cc9_sem3_0 : DmaSem sig := 67
abbrev cc9_sem4_0 : DmaSem sig := 68
abbrev cc9_sem4_1 : DmaSem sig := 69

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  bcast_S_S1000 : S_.BroadcastsInDim S1000 (![] : Fin 0 → Fin S1000.rank)
  bcast_S_S1000x64 : S_.BroadcastsInDim S1000x64 (![] : Fin 0 → Fin S1000x64.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  scatter_S1000_S50000x1_S50000_n_0_0_1_wf : ScatterDims.WF S1000 S50000x1 S50000 [] [0] [0] 1
  scatter_S1000x64_S50000x1_S50000x64_1_0_0_1_wf : ScatterDims.WF S1000x64 S50000x1 S50000x64 [1] [0] [0] 1
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S50000x64.size a
  hwx7_4 : ∀ i : grid7.Coords, EltTy.bits .f32 = 32 ∨ (Rect.block (s := S50000x64) S2000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x64.size a ≤ S50000x64.size a
  hwx8_2 : ∀ i : grid8.Coords, EltTy.bits .f32 = 32 ∨ (Rect.block (s := S50000x64) S2000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x64.size a ≤ S50000x64.size a
  hwx9_1 : ∀ i : grid9.Coords, EltTy.bits .f32 = 32 ∨ (Rect.block (s := S50000x64) S2000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S50000x1.size a
  hwx9_2 : ∀ i : grid9.Coords, EltTy.bits .f32 = 32 ∨ (Rect.block (s := S50000x1) S2000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x64.size a ≤ S50000x64.size a
  hwx9_4 : ∀ i : grid9.Coords, EltTy.bits .f32 = 32 ∨ (Rect.block (s := S50000x64) S2000x64.size (cc9_transform_4 i) (hinb9_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v77) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg3) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v30) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v32) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v92) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v92) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg3) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v93) S2000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v106) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v93) S2000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v30) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v32) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v107) S2000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S1000 : Shape := ⟨1, ![1000]⟩
abbrev S1000x64 : Shape := ⟨2, ![1000, 64]⟩
abbrev S1000x1 : Shape := ⟨2, ![1000, 1]⟩
abbrev S1x1 : Shape := ⟨2, ![1, 1]⟩

abbrev nBuf : Space → Nat
  | .hbm => 202
  | .vmem => 0
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x64, .f32⟩
  | 4 => ⟨S64, .f32⟩
  | 5 => ⟨S64x1, .f32⟩
  | 6 => ⟨S1, .f32⟩
  | 7 => ⟨S2x800000, .i32⟩
  | 8 => ⟨S50000, .i32⟩
  | 9 => ⟨S1x800000, .i32⟩
  | 10 => ⟨S800000, .i32⟩
  | 11 => ⟨S1x800000, .i32⟩
  | 12 => ⟨S800000, .i32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x1, .f32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S800000x1, .f32⟩
  | 85 => ⟨S800000x64, .f32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S50000x1, .f32⟩
  | 92 => ⟨S50000x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S800000x1, .f32⟩
  | 112 => ⟨S800000x64, .f32⟩
  | 113 => ⟨S800000x64, .f32⟩
  | 114 => ⟨S_, .f32⟩
  | 115 => ⟨S50000x64, .f32⟩
  | 116 => ⟨S800000x1, .i32⟩
  | 117 => ⟨S50000x64, .f32⟩
  | 118 => ⟨S50000x1, .f32⟩
  | 119 => ⟨S50000x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S800000x1, .f32⟩
  | 11 => ⟨S800000x64, .f32⟩
  | 12 => ⟨S800000x64, .f32⟩
  | 13 => ⟨S_, .f32⟩
  | 14 => ⟨S50000x64, .f32⟩
  | 15 => ⟨S800000x1, .i32⟩
  | 16 => ⟨S50000x64, .f32⟩
  | 17 => ⟨S50000x1, .f32⟩
  | 18 => ⟨S50000x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S800000x1, .f32⟩
  | 38 => ⟨S800000x64, .f32⟩
  | 39 => ⟨S800000x64, .f32⟩
  | 40 => ⟨S_, .f32⟩
  | 41 => ⟨S50000x64, .f32⟩
  | 42 => ⟨S800000x1, .i32⟩
  | 43 => ⟨S50000x64, .f32⟩
  | 44 => ⟨S50000x1, .f32⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S_, .f32⟩
  | 55 => ⟨S50000, .f32⟩
  | 56 => ⟨S_, .f32⟩
  | 57 => ⟨S1000, .f32⟩
  | 58 => ⟨S50000x1, .i32⟩
  | 59 => ⟨S1000, .f32⟩
  | 60 => ⟨S_, .f32⟩
  | 61 => ⟨S1000x64, .f32⟩
  | 62 => ⟨S50000x1, .i32⟩
  | 63 => ⟨S1000x64, .f32⟩
  | 64 => ⟨S_, .f32⟩
  | 65 => ⟨S1000, .f32⟩
  | 66 => ⟨S1000, .f32⟩
  | 67 => ⟨S1000x1, .f32⟩
  | 68 => ⟨S1000x64, .f32⟩
  | 69 => ⟨S1000x64, .f32⟩
  | 70 => ⟨S1000x1, .f32⟩
  | 71 => ⟨S1x1, .f32⟩
  | 72 => ⟨S1000x1, .f32⟩
  | 73 => ⟨S1000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_cst : Ref sig .tc := ⟨.hbm, 71, rfl⟩
abbrev main_call0_v0 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call1_cst : Ref sig .tc := ⟨.hbm, 98, rfl⟩
abbrev main_call1_v0 : Ref sig .tc := ⟨.hbm, 99, rfl⟩
abbrev main_v73 : Ref sig .tc := ⟨.hbm, 100, rfl⟩
abbrev main_v74 : Ref sig .tc := ⟨.hbm, 101, rfl⟩
abbrev main_c_12 : Ref sig .tc := ⟨.hbm, 102, rfl⟩
abbrev main_v75 : Ref sig .tc := ⟨.hbm, 103, rfl⟩
abbrev main_v76 : Ref sig .tc := ⟨.hbm, 104, rfl⟩
abbrev main_c_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call2_cst : Ref sig .tc := ⟨.hbm, 125, rfl⟩
abbrev main_call2_v0 : Ref sig .tc := ⟨.hbm, 126, rfl⟩
abbrev main_v95 : Ref sig .tc := ⟨.hbm, 127, rfl⟩
abbrev main_v96 : Ref sig .tc := ⟨.hbm, 128, rfl⟩
abbrev main_c_15 : Ref sig .tc := ⟨.hbm, 129, rfl⟩
abbrev main_v97 : Ref sig .tc := ⟨.hbm, 130, rfl⟩
abbrev main_v98 : Ref sig .tc := ⟨.hbm, 131, rfl⟩
abbrev main_c_16 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_17 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call3_cst : Ref sig .tc := ⟨.hbm, 152, rfl⟩
abbrev main_call3_v0 : Ref sig .tc := ⟨.hbm, 153, rfl⟩
abbrev main_v117 : Ref sig .tc := ⟨.hbm, 154, rfl⟩
abbrev main_v118 : Ref sig .tc := ⟨.hbm, 155, rfl⟩
abbrev main_c_18 : Ref sig .tc := ⟨.hbm, 156, rfl⟩
abbrev main_v119 : Ref sig .tc := ⟨.hbm, 157, rfl⟩
abbrev main_v120 : Ref sig .tc := ⟨.hbm, 158, rfl⟩
abbrev main_c_19 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_20 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_call4_cst : Ref sig .tc := ⟨.hbm, 179, rfl⟩
abbrev main_call4_v0 : Ref sig .tc := ⟨.hbm, 180, rfl⟩
abbrev main_v139 : Ref sig .tc := ⟨.hbm, 181, rfl⟩
abbrev main_cst_21 : Ref sig .tc := ⟨.hbm, 182, rfl⟩
abbrev main_v140 : Ref sig .tc := ⟨.hbm, 183, rfl⟩
abbrev main_cst_22 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_23 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_24 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1000 : S_.BroadcastsInDim S1000 (![] : Fin 0 → Fin S1000.rank)
  bcast_S_S1000x64 : S_.BroadcastsInDim S1000x64 (![] : Fin 0 → Fin S1000x64.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S1000_S50000x1_S50000_n_0_0_1_wf : ScatterDims.WF S1000 S50000x1 S50000 [] [0] [0] 1
  scatter_S1000x64_S50000x1_S50000x64_1_0_0_1_wf : ScatterDims.WF S1000x64 S50000x1 S50000x64 [1] [0] [0] 1
  dot_S1000x64_S64x1_S1000x1_1_0_0_1_n_n_wf : DotDims.WF S1000x64 S64x1 S1000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

class Facts : Prop extends Facts₀ where

variable [Facts]
-- ==== Proof.KernelRun.lean ====
/-
  The kernel program's run with its result named.

  The program is a line of seventeen segments — host stretches and kernel regions in turn — and the library's theorem
  for such a line runs them one after the other: every weakly fair execution terminates, nothing faults, and at the end
  every buffer that is not scoped holds what the line of segments leaves in it (the contents at the last boundary).
  Read at the argument arrays that is the launch memory (no segment writes an argument); read at the result buffer it
  is the last boundary's contents there, which the other modules compute.
-/
import proofs.«146099_j20693152432417_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v123) = W17 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v123 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c)⟩)

end Cert.KernelIdeal.Run

end
-- ==== Proof.Fold.lean ====
/-
  What each stretch of host operations and each kernel region leaves untouched.

  The program is a line of seventeen segments: host stretches and kernel regions in turn. A host stretch changes only the
  buffers its operations write; a kernel region changes only its one output array (its input arrays are read, and end as
  they were). So a buffer written early — the edges' endpoints, the edge and self-loop weights, the bias rows, and the
  argument arrays themselves — holds the same contents at every later boundary at which a later segment reads it.
-/
import proofs.«146099_j20693152432417_1_alg».proof.Proof.Gen.KernelIdeal.Frame
import Idealize.ShloMosaic.Lib.StableHlo.Run
import Idealize.ShloMosaic.PureOps.Ideal

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The buffers each host stretch writes -/

/-- The buffers the operations of host stretch 0 write. -/
abbrev written0 : List (Ref sig .tc) := [main_v0, main_v1, main_v2, main_v3, main_cst, main_v4, main_c, main_v5, main_v6, main_c_0, main_v7, main_v8, main_v9, main_v10, main_cst_1, main_v11, main_v12, main_v13, main_c_2, main_v14, main_v15, main_c_3, main_v16, main_v17, main_v18, main_v19, main_v20, main_c_4, main_v21, main_v22, main_c_5, main_v23, main_v24, main_v25, main_v26, main_v27, main_v28, main_v29, main_v30, main_v31, main_v32]
theorem writes0 : (hostOps0 : List (HloOp τ sig (Elt Ideal))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 1 write. -/
abbrev written1 : List (Ref sig .tc) := [main_c_6, main_v34, main_v35, main_c_7, main_v36, main_v37, main_v38, main_v39, main_v40, main_v41, main_v42, main_v43, main_cst_8, main_v44, main_v45, main_v46]
theorem writes1 : (hostOps1 : List (HloOp τ sig (Elt Ideal))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 3 write. -/
abbrev written3 : List (Ref sig .tc) := [main_c_9, main_v49, main_v50, main_c_10, main_v51, main_v52, main_v53, main_v54, main_v55, main_v56, main_v57, main_v58, main_cst_11, main_v59, main_v60, main_v61]
theorem writes3 : (hostOps3 : List (HloOp τ sig (Elt Ideal))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 5 write. -/
abbrev written5 : List (Ref sig .tc) := [main_c_12, main_v64, main_v65, main_c_13, main_v66, main_v67, main_v68, main_v69, main_v70, main_v71, main_v72, main_v73, main_cst_14, main_v74, main_v75, main_v76]
theorem writes5 : (hostOps5 : List (HloOp τ sig (Elt Ideal))).Forall fun op => op.writes ⊆ (written5.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 7 write. -/
abbrev written7 : List (Ref sig .tc) := [main_c_15, main_v79, main_v80, main_c_16, main_v81, main_v82, main_v83, main_v84, main_v85, main_v86, main_v87, main_v88, main_cst_17, main_v89, main_v90, main_v91]
theorem writes7 : (hostOps7 : List (HloOp τ sig (Elt Ideal))).Forall fun op => op.writes ⊆ (written7.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 9 write. -/
abbrev written9 : List (Ref sig .tc) := [main_c_18, main_v94, main_v95, main_c_19, main_v96, main_v97, main_v98, main_v99, main_v100, main_v101, main_v102, main_v103, main_cst_20, main_v104, main_v105, main_v106]
theorem writes9 : (hostOps9 : List (HloOp τ sig (Elt Ideal))).Forall fun op => op.writes ⊆ (written9.map (Proc.devRef (τ := τ) .tc)).toFinset := by
  simp only [hostOps9, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 10 write. -/
abbrev written10 : List (Ref sig .tc) := [main_cst_21, main_v108, main_cst_22, main_v109, main_v110, main_v111, main_cst_23, main_v112, main_v113, main_v114, main_cst_24, main_v115, main_v116, main_v117, main_v118, main_v119, main_v120, main_v121, main_v122, main_v123]
theorem writes10 : (hostOps10 : List (HloOp τ sig (Elt Ideal))).Forall fun op => op.writes ⊆ (written10.map (Proc.devRef (τ := τ) .tc)).toFinset := by
  simp only [hostOps10, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## One segment at a time -/

/-- Host stretch 0 leaves every buffer it does not write. -/
theorem seg1 (c : Dev nD) (r : Ref sig .tc) (h : r ∉ written0) :
    W1 m ρ c (Proc.devRef .tc r) = W0 m ρ c (Proc.devRef .tc r) :=
  StableHlo.after_of_writes_sub hostOps0 _ writes0 h

/-- Region 0 leaves every buffer but its output array: an input array is read and ends as it was, and any other
    buffer is not its concern. -/
theorem seg2 (c : Dev nD) (r : Ref sig .tc) (h : r ≠ main_v33) :
    W2 m ρ c (Proc.devRef .tc r) = W1 m ρ c (Proc.devRef .tc r) := by
  by_cases h0 : r = main_arg0
  · subst h0; exact (W2_arr m ρ c 0).trans (((dat0 (V1 m ρ) c).arrAt_in 0 rfl _).trans (A_eq0 (V1 m ρ) c 0))
  by_cases h1 : r = main_arg1
  · subst h1; exact (W2_arr m ρ c 1).trans (((dat0 (V1 m ρ) c).arrAt_in 1 rfl _).trans (A_eq0 (V1 m ρ) c 1))
  exact W2_of_ne m ρ c r fun w => by
    fin_cases w
    · exact Ne.symm h0
    · exact Ne.symm h1
    · exact Ne.symm h

/-- Host stretch 1 leaves every buffer it does not write. -/
theorem seg3 (c : Dev nD) (r : Ref sig .tc) (h : r ∉ written1) :
    W3 m ρ c (Proc.devRef .tc r) = W2 m ρ c (Proc.devRef .tc r) :=
  StableHlo.after_of_writes_sub hostOps1 _ writes1 h

/-- Region 1 leaves every buffer but its output array: an input array is read and ends as it was, and any other
    buffer is not its concern. -/
theorem seg4 (c : Dev nD) (r : Ref sig .tc) (h : r ≠ main_v47) :
    W4 m ρ c (Proc.devRef .tc r) = W3 m ρ c (Proc.devRef .tc r) := by
  by_cases h0 : r = main_v46
  · subst h0; exact (W4_arr m ρ c 0).trans (((dat1 (V3 m ρ) c).arrAt_in 0 rfl _).trans (A_eq1 (V3 m ρ) c 0))
  by_cases h1 : r = main_v33
  · subst h1; exact (W4_arr m ρ c 1).trans (((dat1 (V3 m ρ) c).arrAt_in 1 rfl _).trans (A_eq1 (V3 m ρ) c 1))
  by_cases h2 : r = main_v30
  · subst h2; exact (W4_arr m ρ c 2).trans (((dat1 (V3 m ρ) c).arrAt_in 2 rfl _).trans (A_eq1 (V3 m ρ) c 2))
  by_cases h3 : r = main_v31
  · subst h3; exact (W4_arr m ρ c 3).trans (((dat1 (V3 m ρ) c).arrAt_in 3 rfl _).trans (A_eq1 (V3 m ρ) c 3))
  exact W4_of_ne m ρ c r fun w => by
    fin_cases w
    · exact Ne.symm h0
    · exact Ne.symm h1
    · exact Ne.symm h2
    · exact Ne.symm h3
    · exact Ne.symm h

/-- Region 2 leaves every buffer but its output array: an input array is read and ends as it was, and any other
    buffer is not its concern. -/
theorem seg5 (c : Dev nD) (r : Ref sig .tc) (h : r ≠ main_v48) :
    W5 m ρ c (Proc.devRef .tc r) = W4 m ρ c (Proc.devRef .tc r) := by
  by_cases h0 : r = main_v47
  · subst h0; exact (W5_arr m ρ c 0).trans (((dat2 (V4 m ρ) c).arrAt_in 0 rfl _).trans (A_eq2 (V4 m ρ) c 0))
  by_cases h1 : r = main_arg3
  · subst h1; exact (W5_arr m ρ c 1).trans (((dat2 (V4 m ρ) c).arrAt_in 1 rfl _).trans (A_eq2 (V4 m ρ) c 1))
  exact W5_of_ne m ρ c r fun w => by
    fin_cases w
    · exact Ne.symm h0
    · exact Ne.symm h1
    · exact Ne.symm h

/-- Host stretch 3 leaves every buffer it does not write. -/
theorem seg6 (c : Dev nD) (r : Ref sig .tc) (h : r ∉ written3) :
    W6 m ρ c (Proc.devRef .tc r) = W5 m ρ c (Proc.devRef .tc r) :=
  StableHlo.after_of_writes_sub hostOps3 _ writes3 h

/-- Region 3 leaves every buffer but its output array: an input array is read and ends as it was, and any other
    buffer is not its concern. -/
theorem seg7 (c : Dev nD) (r : Ref sig .tc) (h : r ≠ main_v62) :
    W7 m ρ c (Proc.devRef .tc r) = W6 m ρ c (Proc.devRef .tc r) := by
  by_cases h0 : r = main_v61
  · subst h0; exact (W7_arr m ρ c 0).trans (((dat3 (V6 m ρ) c).arrAt_in 0 rfl _).trans (A_eq3 (V6 m ρ) c 0))
  by_cases h1 : r = main_v48
  · subst h1; exact (W7_arr m ρ c 1).trans (((dat3 (V6 m ρ) c).arrAt_in 1 rfl _).trans (A_eq3 (V6 m ρ) c 1))
  by_cases h2 : r = main_v30
  · subst h2; exact (W7_arr m ρ c 2).trans (((dat3 (V6 m ρ) c).arrAt_in 2 rfl _).trans (A_eq3 (V6 m ρ) c 2))
  by_cases h3 : r = main_v32
  · subst h3; exact (W7_arr m ρ c 3).trans (((dat3 (V6 m ρ) c).arrAt_in 3 rfl _).trans (A_eq3 (V6 m ρ) c 3))
  exact W7_of_ne m ρ c r fun w => by
    fin_cases w
    · exact Ne.symm h0
    · exact Ne.symm h1
    · exact Ne.symm h2
    · exact Ne.symm h3
    · exact Ne.symm h

/-- Region 4 leaves every buffer but its output array: an input array is read and ends as it was, and any other
    buffer is not its concern. -/
theorem seg8 (c : Dev nD) (r : Ref sig .tc) (h : r ≠ main_v63) :
    W8 m ρ c (Proc.devRef .tc r) = W7 m ρ c (Proc.devRef .tc r) := by
  by_cases h0 : r = main_v62
  · subst h0; exact (W8_arr m ρ c 0).trans (((dat4 (V7 m ρ) c).arrAt_in 0 rfl _).trans (A_eq4 (V7 m ρ) c 0))
  by_cases h1 : r = main_arg3
  · subst h1; exact (W8_arr m ρ c 1).trans (((dat4 (V7 m ρ) c).arrAt_in 1 rfl _).trans (A_eq4 (V7 m ρ) c 1))
  exact W8_of_ne m ρ c r fun w => by
    fin_cases w
    · exact Ne.symm h0
    · exact Ne.symm h1
    · exact Ne.symm h

/-- Host stretch 5 leaves every buffer it does not write. -/
theorem seg9 (c : Dev nD) (r : Ref sig .tc) (h : r ∉ written5) :
    W9 m ρ c (Proc.devRef .tc r) = W8 m ρ c (Proc.devRef .tc r) :=
  StableHlo.after_of_writes_sub hostOps5 _ writes5 h

/-- Region 5 leaves every buffer but its output array: an input array is read and ends as it was, and any other
    buffer is not its concern. -/
theorem seg10 (c : Dev nD) (r : Ref sig .tc) (h : r ≠ main_v77) :
    W10 m ρ c (Proc.devRef .tc r) = W9 m ρ c (Proc.devRef .tc r) := by
  by_cases h0 : r = main_v76
  · subst h0; exact (W10_arr m ρ c 0).trans (((dat5 (V9 m ρ) c).arrAt_in 0 rfl _).trans (A_eq5 (V9 m ρ) c 0))
  by_cases h1 : r = main_v63
  · subst h1; exact (W10_arr m ρ c 1).trans (((dat5 (V9 m ρ) c).arrAt_in 1 rfl _).trans (A_eq5 (V9 m ρ) c 1))
  by_cases h2 : r = main_v30
  · subst h2; exact (W10_arr m ρ c 2).trans (((dat5 (V9 m ρ) c).arrAt_in 2 rfl _).trans (A_eq5 (V9 m ρ) c 2))
  by_cases h3 : r = main_v32
  · subst h3; exact (W10_arr m ρ c 3).trans (((dat5 (V9 m ρ) c).arrAt_in 3 rfl _).trans (A_eq5 (V9 m ρ) c 3))
  exact W10_of_ne m ρ c r fun w => by
    fin_cases w
    · exact Ne.symm h0
    · exact Ne.symm h1
    · exact Ne.symm h2
    · exact Ne.symm h3
    · exact Ne.symm h

/-- Region 6 leaves every buffer but its output array: an input array is read and ends as it was, and any other
    buffer is not its concern. -/
theorem seg11 (c : Dev nD) (r : Ref sig .tc) (h : r ≠ main_v78) :
    W11 m ρ c (Proc.devRef .tc r) = W10 m ρ c (Proc.devRef .tc r) := by
  by_cases h0 : r = main_v77
  · subst h0; exact (W11_arr m ρ c 0).trans (((dat6 (V10 m ρ) c).arrAt_in 0 rfl _).trans (A_eq6 (V10 m ρ) c 0))
  by_cases h1 : r = main_arg3
  · subst h1; exact (W11_arr m ρ c 1).trans (((dat6 (V10 m ρ) c).arrAt_in 1 rfl _).trans (A_eq6 (V10 m ρ) c 1))
  exact W11_of_ne m ρ c r fun w => by
    fin_cases w
    · exact Ne.symm h0
    · exact Ne.symm h1
    · exact Ne.symm h

/-- Host stretch 7 leaves every buffer it does not write. -/
theorem seg12 (c : Dev nD) (r : Ref sig .tc) (h : r ∉ written7) :
    W12 m ρ c (Proc.devRef .tc r) = W11 m ρ c (Proc.devRef .tc r) :=
  StableHlo.after_of_writes_sub hostOps7 _ writes7 h

/-- Region 7 leaves every buffer but its output array: an input array is read and ends as it was, and any other
    buffer is not its concern. -/
theorem seg13 (c : Dev nD) (r : Ref sig .tc) (h : r ≠ main_v92) :
    W13 m ρ c (Proc.devRef .tc r) = W12 m ρ c (Proc.devRef .tc r) := by
  by_cases h0 : r = main_v91
  · subst h0; exact (W13_arr m ρ c 0).trans (((dat7 (V12 m ρ) c).arrAt_in 0 rfl _).trans (A_eq7 (V12 m ρ) c 0))
  by_cases h1 : r = main_v78
  · subst h1; exact (W13_arr m ρ c 1).trans (((dat7 (V12 m ρ) c).arrAt_in 1 rfl _).trans (A_eq7 (V12 m ρ) c 1))
  by_cases h2 : r = main_v30
  · subst h2; exact (W13_arr m ρ c 2).trans (((dat7 (V12 m ρ) c).arrAt_in 2 rfl _).trans (A_eq7 (V12 m ρ) c 2))
  by_cases h3 : r = main_v32
  · subst h3; exact (W13_arr m ρ c 3).trans (((dat7 (V12 m ρ) c).arrAt_in 3 rfl _).trans (A_eq7 (V12 m ρ) c 3))
  exact W13_of_ne m ρ c r fun w => by
    fin_cases w
    · exact Ne.symm h0
    · exact Ne.symm h1
    · exact Ne.symm h2
    · exact Ne.symm h3
    · exact Ne.symm h

/-- Region 8 leaves every buffer but its output array: an input array is read and ends as it was, and any other
    buffer is not its concern. -/
theorem seg14 (c : Dev nD) (r : Ref sig .tc) (h : r ≠ main_v93) :
    W14 m ρ c (Proc.devRef .tc r) = W13 m ρ c (Proc.devRef .tc r) := by
  by_cases h0 : r = main_v92
  · subst h0; exact (W14_arr m ρ c 0).trans (((dat8 (V13 m ρ) c).arrAt_in 0 rfl _).trans (A_eq8 (V13 m ρ) c 0))
  by_cases h1 : r = main_arg3
  · subst h1; exact (W14_arr m ρ c 1).trans (((dat8 (V13 m ρ) c).arrAt_in 1 rfl _).trans (A_eq8 (V13 m ρ) c 1))
  exact W14_of_ne m ρ c r fun w => by
    fin_cases w
    · exact Ne.symm h0
    · exact Ne.symm h1
    · exact Ne.symm h

/-- Host stretch 9 leaves every buffer it does not write. -/
theorem seg15 (c : Dev nD) (r : Ref sig .tc) (h : r ∉ written9) :
    W15 m ρ c (Proc.devRef .tc r) = W14 m ρ c (Proc.devRef .tc r) :=
  StableHlo.after_of_writes_sub hostOps9 _ writes9 h

/-- Region 9 leaves every buffer but its output array: an input array is read and ends as it was, and any other
    buffer is not its concern. -/
theorem seg16 (c : Dev nD) (r : Ref sig .tc) (h : r ≠ main_v107) :
    W16 m ρ c (Proc.devRef .tc r) = W15 m ρ c (Proc.devRef .tc r) := by
  by_cases h0 : r = main_v106
  · subst h0; exact (W16_arr m ρ c 0).trans (((dat9 (V15 m ρ) c).arrAt_in 0 rfl _).trans (A_eq9 (V15 m ρ) c 0))
  by_cases h1 : r = main_v93
  · subst h1; exact (W16_arr m ρ c 1).trans (((dat9 (V15 m ρ) c).arrAt_in 1 rfl _).trans (A_eq9 (V15 m ρ) c 1))
  by_cases h2 : r = main_v30
  · subst h2; exact (W16_arr m ρ c 2).trans (((dat9 (V15 m ρ) c).arrAt_in 2 rfl _).trans (A_eq9 (V15 m ρ) c 2))
  by_cases h3 : r = main_v32
  · subst h3; exact (W16_arr m ρ c 3).trans (((dat9 (V15 m ρ) c).arrAt_in 3 rfl _).trans (A_eq9 (V15 m ρ) c 3))
  exact W16_of_ne m ρ c r fun w => by
    fin_cases w
    · exact Ne.symm h0
    · exact Ne.symm h1
    · exact Ne.symm h2
    · exact Ne.symm h3
    · exact Ne.symm h

/-- Host stretch 10 leaves every buffer it does not write. -/
theorem seg17 (c : Dev nD) (r : Ref sig .tc) (h : r ∉ written10) :
    W17 m ρ c (Proc.devRef .tc r) = W16 m ρ c (Proc.devRef .tc r) :=
  StableHlo.after_of_writes_sub hostOps10 _ writes10 h

/-! ## Buffers no later segment writes -/

/-- Written by no segment after the first host stretch: by none of the later host stretches, and not the output array
    of any region. -/
abbrev Settled (r : Ref sig .tc) : Prop :=
  r ∉ written1 ∧ r ∉ written3 ∧ r ∉ written5 ∧ r ∉ written7 ∧ r ∉ written9 ∧
  r ≠ main_v33 ∧ r ≠ main_v47 ∧ r ≠ main_v48 ∧ r ≠ main_v62 ∧ r ≠ main_v63 ∧ r ≠ main_v77 ∧ r ≠ main_v78 ∧
  r ≠ main_v92 ∧ r ≠ main_v93 ∧ r ≠ main_v107

/-- At the first boundary a buffer the first host stretch does not write holds its launch contents. -/
theorem launch (c : Dev nD) (r : Ref sig .tc) (h : r ∉ written0) :
    W1 m ρ c (Proc.devRef .tc r) = m ((c : Thread nD τ).loc r) :=
  seg1 m ρ c r h

theorem at2 (c : Dev nD) (r : Ref sig .tc) (h : Settled r) :
    W2 m ρ c (Proc.devRef .tc r) = W1 m ρ c (Proc.devRef .tc r) := by
  obtain ⟨a1, a3, a5, a7, a9, o33, o47, o48, o62, o63, o77, o78, o92, o93, o107⟩ := h
  exact seg2 m ρ c r o33

theorem at3 (c : Dev nD) (r : Ref sig .tc) (h : Settled r) :
    W3 m ρ c (Proc.devRef .tc r) = W1 m ρ c (Proc.devRef .tc r) := by
  obtain ⟨a1, a3, a5, a7, a9, o33, o47, o48, o62, o63, o77, o78, o92, o93, o107⟩ := h
  exact (seg3 m ρ c r a1).trans (at2 m ρ c r ⟨a1, a3, a5, a7, a9, o33, o47, o48, o62, o63, o77, o78, o92, o93, o107⟩)

theorem at4 (c : Dev nD) (r : Ref sig .tc) (h : Settled r) :
    W4 m ρ c (Proc.devRef .tc r) = W1 m ρ c (Proc.devRef .tc r) := by
  obtain ⟨a1, a3, a5, a7, a9, o33, o47, o48, o62, o63, o77, o78, o92, o93, o107⟩ := h
  exact (seg4 m ρ c r o47).trans (at3 m ρ c r ⟨a1, a3, a5, a7, a9, o33, o47, o48, o62, o63, o77, o78, o92, o93, o107⟩)

theorem at5 (c : Dev nD) (r : Ref sig .tc) (h : Settled r) :
    W5 m ρ c (Proc.devRef .tc r) = W1 m ρ c (Proc.devRef .tc r) := by
  obtain ⟨a1, a3, a5, a7, a9, o33, o47, o48, o62, o63, o77, o78, o92, o93, o107⟩ := h
  exact (seg5 m ρ c r o48).trans (at4 m ρ c r ⟨a1, a3, a5, a7, a9, o33, o47, o48, o62, o63, o77, o78, o92, o93, o107⟩)

theorem at6 (c : Dev nD) (r : Ref sig .tc) (h : Settled r) :
    W6 m ρ c (Proc.devRef .tc r) = W1 m ρ c (Proc.devRef .tc r) := by
  obtain ⟨a1, a3, a5, a7, a9, o33, o47, o48, o62, o63, o77, o78, o92, o93, o107⟩ := h
  exact (seg6 m ρ c r a3).trans (at5 m ρ c r ⟨a1, a3, a5, a7, a9, o33, o47, o48, o62, o63, o77, o78, o92, o93, o107⟩)

theorem at7 (c : Dev nD) (r : Ref sig .tc) (h : Settled r) :
    W7 m ρ c (Proc.devRef .tc r) = W1 m ρ c (Proc.devRef .tc r) := by
  obtain ⟨a1, a3, a5, a7, a9, o33, o47, o48, o62, o63, o77, o78, o92, o93, o107⟩ := h
  exact (seg7 m ρ c r o62).trans (at6 m ρ c r ⟨a1, a3, a5, a7, a9, o33, o47, o48, o62, o63, o77, o78, o92, o93, o107⟩)

theorem at8 (c : Dev nD) (r : Ref sig .tc) (h : Settled r) :
    W8 m ρ c (Proc.devRef .tc r) = W1 m ρ c (Proc.devRef .tc r) := by
  obtain ⟨a1, a3, a5, a7, a9, o33, o47, o48, o62, o63, o77, o78, o92, o93, o107⟩ := h
  exact (seg8 m ρ c r o63).trans (at7 m ρ c r ⟨a1, a3, a5, a7, a9, o33, o47, o48, o62, o63, o77, o78, o92, o93, o107⟩)

theorem at9 (c : Dev nD) (r : Ref sig .tc) (h : Settled r) :
    W9 m ρ c (Proc.devRef .tc r) = W1 m ρ c (Proc.devRef .tc r) := by
  obtain ⟨a1, a3, a5, a7, a9, o33, o47, o48, o62, o63, o77, o78, o92, o93, o107⟩ := h
  exact (seg9 m ρ c r a5).trans (at8 m ρ c r ⟨a1, a3, a5, a7, a9, o33, o47, o48, o62, o63, o77, o78, o92, o93, o107⟩)

theorem at10 (c : Dev nD) (r : Ref sig .tc) (h : Settled r) :
    W10 m ρ c (Proc.devRef .tc r) = W1 m ρ c (Proc.devRef .tc r) := by
  obtain ⟨a1, a3, a5, a7, a9, o33, o47, o48, o62, o63, o77, o78, o92, o93, o107⟩ := h
  exact (seg10 m ρ c r o77).trans (at9 m ρ c r ⟨a1, a3, a5, a7, a9, o33, o47, o48, o62, o63, o77, o78, o92, o93, o107⟩)

theorem at11 (c : Dev nD) (r : Ref sig .tc) (h : Settled r) :
    W11 m ρ c (Proc.devRef .tc r) = W1 m ρ c (Proc.devRef .tc r) := by
  obtain ⟨a1, a3, a5, a7, a9, o33, o47, o48, o62, o63, o77, o78, o92, o93, o107⟩ := h
  exact (seg11 m ρ c r o78).trans (at10 m ρ c r ⟨a1, a3, a5, a7, a9, o33, o47, o48, o62, o63, o77, o78, o92, o93, o107⟩)

theorem at12 (c : Dev nD) (r : Ref sig .tc) (h : Settled r) :
    W12 m ρ c (Proc.devRef .tc r) = W1 m ρ c (Proc.devRef .tc r) := by
  obtain ⟨a1, a3, a5, a7, a9, o33, o47, o48, o62, o63, o77, o78, o92, o93, o107⟩ := h
  exact (seg12 m ρ c r a7).trans (at11 m ρ c r ⟨a1, a3, a5, a7, a9, o33, o47, o48, o62, o63, o77, o78, o92, o93, o107⟩)

theorem at13 (c : Dev nD) (r : Ref sig .tc) (h : Settled r) :
    W13 m ρ c (Proc.devRef .tc r) = W1 m ρ c (Proc.devRef .tc r) := by
  obtain ⟨a1, a3, a5, a7, a9, o33, o47, o48, o62, o63, o77, o78, o92, o93, o107⟩ := h
  exact (seg13 m ρ c r o92).trans (at12 m ρ c r ⟨a1, a3, a5, a7, a9, o33, o47, o48, o62, o63, o77, o78, o92, o93, o107⟩)

theorem at14 (c : Dev nD) (r : Ref sig .tc) (h : Settled r) :
    W14 m ρ c (Proc.devRef .tc r) = W1 m ρ c (Proc.devRef .tc r) := by
  obtain ⟨a1, a3, a5, a7, a9, o33, o47, o48, o62, o63, o77, o78, o92, o93, o107⟩ := h
  exact (seg14 m ρ c r o93).trans (at13 m ρ c r ⟨a1, a3, a5, a7, a9, o33, o47, o48, o62, o63, o77, o78, o92, o93, o107⟩)

theorem at15 (c : Dev nD) (r : Ref sig .tc) (h : Settled r) :
    W15 m ρ c (Proc.devRef .tc r) = W1 m ρ c (Proc.devRef .tc r) := by
  obtain ⟨a1, a3, a5, a7, a9, o33, o47, o48, o62, o63, o77, o78, o92, o93, o107⟩ := h
  exact (seg15 m ρ c r a9).trans (at14 m ρ c r ⟨a1, a3, a5, a7, a9, o33, o47, o48, o62, o63, o77, o78, o92, o93, o107⟩)

theorem at16 (c : Dev nD) (r : Ref sig .tc) (h : Settled r) :
    W16 m ρ c (Proc.devRef .tc r) = W1 m ρ c (Proc.devRef .tc r) := by
  obtain ⟨a1, a3, a5, a7, a9, o33, o47, o48, o62, o63, o77, o78, o92, o93, o107⟩ := h
  exact (seg16 m ρ c r o107).trans (at15 m ρ c r ⟨a1, a3, a5, a7, a9, o33, o47, o48, o62, o63, o77, o78, o92, o93, o107⟩)

end Cert.KernelIdeal.Fold

end
-- ==== Proof.LibGcnRows.lean ====
/-
  The graph-convolution network on the extended reals, entry by entry — general in the number of nodes N and of
  features K.

  One layer takes the node features x, forms h = x · w, aggregates the neighbours' rows of h (a gather of the
  source rows, each scaled by its edge's weight, added into the target rows) and then combines, at node r and
  feature k,
      max ((agg (r, k) + h (r, k) · d (r)) + b (k)) 0,
  with d the self-loop weight of node r kept as a one-column array and b the bias kept as a one-row array. The
  network ends in the row-wise log-softmax
      (z (r, q) − M r) − log Σ_k exp (z (r, k) − M r),   M r the maximum of row r taken from the f32 word of −∞.
  Both act on each row by itself, which is why a block of rows of the operands gives the same rows of the result.
  Nothing here needs an entry to be finite: the grouping of every sum is the same on both sides of every equation.
-/
import Idealize.ShloMosaic.PureOps.Ideal.Laws
import Idealize.ShloMosaic.Lib.ValueIdx

noncomputable section

namespace Cert.Gcn

open Idealize.ShloMosaic Idealize.ShloMosaic.ValueIdx

/-- The aggregated rows plus the self-loop term plus the bias, then the maximum with zero (the zero spelt as the f32
    word both programs print, never evaluated). -/
def combine {N K : Nat} (agg h : (⟨2, ![N, K]⟩ : Shape).Idx → EReal) (d : (⟨2, ![N, 1]⟩ : Shape).Idx → EReal)
    (b : (⟨2, ![1, K]⟩ : Shape).Idx → EReal) : (⟨2, ![N, K]⟩ : Shape).Idx → EReal :=
  fun i => max ((agg i + h i * d (ix2 (i 0 : Fin N) (0 : Fin 1))) + b (ix2 (0 : Fin 1) (i 1 : Fin K)))
    (Ideal.ofBits .f32 0x00000000#32)

theorem combine_apply {N K : Nat} (agg h : (⟨2, ![N, K]⟩ : Shape).Idx → EReal) (d : (⟨2, ![N, 1]⟩ : Shape).Idx → EReal)
    (b : (⟨2, ![1, K]⟩ : Shape).Idx → EReal) (p : Fin N) (k : Fin K) :
    combine agg h d b (ix2 p k)
      = max ((agg (ix2 p k) + h (ix2 p k) * d (ix2 p (0 : Fin 1))) + b (ix2 (0 : Fin 1) k)) (Ideal.ofBits .f32 0x00000000#32) := rfl

/-- Each entry by itself: where the four operands of one array agree with those of another at the entries read, the
    two results agree. -/
theorem combine_congr {N N' K : Nat} (agg h : (⟨2, ![N, K]⟩ : Shape).Idx → EReal) (d : (⟨2, ![N, 1]⟩ : Shape).Idx → EReal)
    (b : (⟨2, ![1, K]⟩ : Shape).Idx → EReal) (agg' h' : (⟨2, ![N', K]⟩ : Shape).Idx → EReal) (d' : (⟨2, ![N', 1]⟩ : Shape).Idx → EReal)
    (b' : (⟨2, ![1, K]⟩ : Shape).Idx → EReal) (p : Fin N) (p' : Fin N') (k : Fin K)
    (ha : agg' (ix2 p' k) = agg (ix2 p k)) (hh : h' (ix2 p' k) = h (ix2 p k))
    (hd : d' (ix2 p' (0 : Fin 1)) = d (ix2 p (0 : Fin 1))) (hb : b' (ix2 (0 : Fin 1) k) = b (ix2 (0 : Fin 1) k)) :
    combine agg' h' d' b' (ix2 p' k) = combine agg h d b (ix2 p k) := by
  rw [combine_apply, combine_apply, ha, hh, hd, hb]

/-- The maximum of row p of z, taken from the f32 word of −∞. -/
def rowTop {N K : Nat} (z : (⟨2, ![N, K]⟩ : Shape).Idx → EReal) (p : Fin N) : EReal :=
  (Finset.univ : Finset (Fin K)).fold max (Ideal.ofBits .f32 0xFF800000#32) fun k : Fin K => z (ix2 p k)

/-- The row-wise log-softmax. -/
def logSoftmax {N K : Nat} (z : (⟨2, ![N, K]⟩ : Shape).Idx → EReal) : (⟨2, ![N, K]⟩ : Shape).Idx → EReal :=
  fun i => (z i - rowTop z (i 0 : Fin N)) - Ideal.log (∑ k : Fin K, Ideal.exp (z (ix2 (i 0 : Fin N) k) - rowTop z (i 0 : Fin N)))

theorem logSoftmax_apply {N K : Nat} (z : (⟨2, ![N, K]⟩ : Shape).Idx → EReal) (p : Fin N) (q : Fin K) :
    logSoftmax z (ix2 p q)
      = (z (ix2 p q) - rowTop z p) - Ideal.log (∑ k : Fin K, Ideal.exp (z (ix2 p k) - rowTop z p)) := rfl

/-- Each row by itself: equal rows give equal results at those rows. -/
theorem logSoftmax_congr {N N' K : Nat} (z : (⟨2, ![N, K]⟩ : Shape).Idx → EReal) (z' : (⟨2, ![N', K]⟩ : Shape).Idx → EReal)
    (p : Fin N) (p' : Fin N') (q : Fin K) (hz : ∀ k : Fin K, z' (ix2 p' k) = z (ix2 p k)) :
    logSoftmax z' (ix2 p' q) = logSoftmax z (ix2 p q) := by
  have ht : rowTop z' p' = rowTop z p :=
    congrArg (fun f : Fin K → EReal => (Finset.univ : Finset (Fin K)).fold max (Ideal.ofBits .f32 0xFF800000#32) f) (funext hz)
  rw [logSoftmax_apply, logSoftmax_apply, ht, hz q]
  exact congrArg (fun s => (z (ix2 p q) - rowTop z p) - Ideal.log s) (Finset.sum_congr rfl fun k _ => by rw [hz k])

end Cert.Gcn

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«146099_j20693152432417_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Net.lean ====
/-
  The network both programs compute, as one function of the arrays, layer by layer, on the extended reals.

  A graph-convolution layer takes node features h (one row per node), forms the product h · w, aggregates over the
  edges — gathers the product's row at each edge's source, scales it by the edge's weight, and adds it into the row of
  the edge's target — and combines, at node r and feature k,
      max ((agg (r, k) + (h · w) (r, k) · d (r)) + b (k)) 0,
  with d the self-loop weights kept as a one-column array and b the bias kept as a one-row array. Five layers follow
  one another (the first with its own weights, the other four sharing theirs); then the features are averaged over the
  nodes of each graph (sums scattered by the graph number of each node, divided by the larger of the node count and
  one) and sent through a last linear map.

  The aggregation over the edges and the read-out are the host's own operations in both programs; they are named here
  and never opened: only what goes INTO them has to be shown equal.
-/
import proofs.«146099_j20693152432417_1_alg».proof.Proof.Gen.ReferenceIdeal
import proofs.«146099_j20693152432417_1_alg».proof.Proof.LibGcnRows
import proofs.«146099_j20693152432417_1_alg».proof.Proof.LibRowsCols
import Idealize.ShloMosaic.Lib.Pipeline.Value
import Idealize.ShloMosaic.Lib.ValueIdx

noncomputable section

namespace Cert.ReferenceIdeal.Net

open Cert.ReferenceIdeal Cert.ReferenceIdeal.Gen Idealize.ShloMosaic Idealize.ShloMosaic.ValueIdx
open Cert.Gcn (combine)
open Cert.Dense (rowsTimes)

/-- One entry per edge: a node number. -/
abbrev EdgeEnds := IVec S800000 32
/-- One entry per edge: its weight. -/
abbrev EdgeWeights := FVec Ideal S800000 .f32
/-- One row of 64 features per node. -/
abbrev Features := FVec Ideal S50000x64 .f32

/-- The sum over the edges into each node: the source node's row of `hw` (a negative node number counted from the
    end), times the edge's weight, added into the target node's row of a zero array. -/
def aggregate (src dst : EdgeEnds) (enorm : EdgeWeights) (hw : Features) : Features :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf
      (Host.gather gather_S50000x64_S800000x1_S800000x64_1_0_n_n_0_1_164 hw
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32)))
            src)))
      (broadcastInDim S800000x64 ![0, 1] bcast_S800000x1_S800000x64_0_1
        (broadcastInDim S800000x1 ![0] bcast_S800000_S800000x1_0 enorm)))

/-- One layer: product, aggregation over the edges, self-loop term, bias, maximum with zero. -/
def layer {K : Nat} (src dst : EdgeEnds) (enorm : EdgeWeights) (d : (⟨2, ![50000, 1]⟩ : Shape).Idx → EReal)
    (h : (⟨2, ![50000, K]⟩ : Shape).Idx → EReal) (w : (⟨2, ![K, 64]⟩ : Shape).Idx → EReal)
    (b : (⟨2, ![1, 64]⟩ : Shape).Idx → EReal) : (⟨2, ![50000, 64]⟩ : Shape).Idx → EReal :=
  combine (aggregate src dst enorm (rowsTimes h w)) (rowsTimes h w) d b

/-- The read-out: the features summed over the nodes of each graph, divided by the larger of the graph's node count
    and one, times the last weights, plus the last bias. -/
def readout (batch : IVec S50000 32) (wl : FVec Ideal S64x1 .f32)
    (bl : FVec Ideal S1 .f32) (h : Features) : FVec Ideal S1000x1 .f32 :=
  addf
    (Host.dotGeneral (F := Ideal) dot_S1000x64_S64x1_S1000x1_1_0_0_1_n_n none
      (Host.divf (F := Ideal)
        (Host.scatterAdd scatter_S1000x64_S50000x1_S50000x64_1_0_0_1
          (broadcastInDim S1000x64 ![] bcast_S_S1000x64 (constant (F := Ideal) S_ .f32 0x00000000#32))
          (broadcastInDim S50000x1 ![0] bcast_S50000_S50000x1_0 batch) h)
        (broadcastInDim S1000x64 ![0, 1] bcast_S1000x1_S1000x64_0_1
          (broadcastInDim S1000x1 ![0] bcast_S1000_S1000x1_0
            (maximumf
              (Host.scatterAdd scatter_S1000_S50000x1_S50000_n_0_0_1
                (broadcastInDim S1000 ![] bcast_S_S1000 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S1000 ![] bcast_S_S1000 (constant (F := Ideal) S_ .f32 0x3F800000#32))))))
      wl)
    (broadcastInDim S1000x1 ![0, 1] bcast_S1x1_S1000x1_0_1 (broadcastInDim S1x1 ![1] bcast_S1_S1x1_1 bl))

/-- The whole network: five layers, then the read-out. -/
def net (src dst : EdgeEnds) (enorm : EdgeWeights) (d : (⟨2, ![50000, 1]⟩ : Shape).Idx → EReal)
    (x : (⟨2, ![50000, 128]⟩ : Shape).Idx → EReal) (w1 : (⟨2, ![128, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (batch : IVec S50000 32) (wl : FVec Ideal S64x1 .f32)
    (bl : FVec Ideal S1 .f32) : FVec Ideal S1000x1 .f32 :=
  readout batch wl bl
    (layer src dst enorm d (layer src dst enorm d (layer src dst enorm d (layer src dst enorm d
      (layer src dst enorm d x w1 b1) w2 b2) w2 b2) w2 b2) w2 b2)

/-! ## The host's spelling of one layer -/

/-- The host's two contraction records are "rows times columns". -/
theorem rowsCols128 : Cert.Dense.RowsCols (R := 50000) (K := 128) (N := 64) dot_S50000x128_S128x64_S50000x64_1_0_0_1_n_n :=
  ⟨rfl, rfl, fun _ _ => rfl, fun _ _ => rfl, fun _ _ => rfl, fun _ _ => rfl⟩
theorem rowsCols64 : Cert.Dense.RowsCols (R := 50000) (K := 64) (N := 64) dot_S50000x64_S64x64_S50000x64_1_0_0_1_n_n :=
  ⟨rfl, rfl, fun _ _ => rfl, fun _ _ => rfl, fun _ _ => rfl, fun _ _ => rfl⟩

/-- The host adds the self-loop term and the bias by repeating the one-column array along the rows and the one-row
    array down the rows, and takes the maximum with a zero repeated everywhere: entry by entry that is the combination. -/
theorem host_combine {N K : Nat} (agg h : FVec Ideal ⟨2, ![N, K]⟩ .f32) (d : FVec Ideal ⟨2, ![N, 1]⟩ .f32) (b : FVec Ideal ⟨2, ![1, K]⟩ .f32)
    (b01 : (⟨2, ![N, 1]⟩ : Shape).BroadcastsInDim ⟨2, ![N, K]⟩ ![0, 1]) (b11 : (⟨2, ![1, K]⟩ : Shape).BroadcastsInDim ⟨2, ![N, K]⟩ ![0, 1])
    (bz : (⟨0, ![]⟩ : Shape).BroadcastsInDim ⟨2, ![N, K]⟩ ![]) :
    maximumf (addf (addf agg (mulf h (broadcastInDim ⟨2, ![N, K]⟩ ![0, 1] b01 d))) (broadcastInDim ⟨2, ![N, K]⟩ ![0, 1] b11 b))
      (broadcastInDim ⟨2, ![N, K]⟩ ![] bz (constant (F := Ideal) ⟨0, ![]⟩ .f32 0x00000000#32))
    = combine agg h d b := by
  funext i
  obtain ⟨p, k, rfl⟩ : ∃ (p : Fin N) (k : Fin K), i = ix2 p k := ⟨i 0, i 1, eq_ix2 i⟩
  rw [Cert.Gcn.combine_apply]
  show max ((agg (ix2 p k) + h (ix2 p k) * broadcastInDim ⟨2, ![N, K]⟩ ![0, 1] b01 d (ix2 p k))
      + broadcastInDim ⟨2, ![N, K]⟩ ![0, 1] b11 b (ix2 p k)) (Ideal.ofBits .f32 0x00000000#32) = _
  have hd : broadcastInDim ⟨2, ![N, K]⟩ ![0, 1] b01 d (ix2 p k) = d (ix2 p (0 : Fin 1)) := by
    refine broadcastInDim_apply _ b01 d (ix2 p k) (ix2 p (0 : Fin 1)) fun a => ?_
    match a with
    | ⟨0, _⟩ =>
      show p.val = if N = 1 then 0 else p.val
      split
      · have := p.isLt; omega
      · rfl
    | ⟨1, _⟩ => rfl
  have hb : broadcastInDim ⟨2, ![N, K]⟩ ![0, 1] b11 b (ix2 p k) = b (ix2 (0 : Fin 1) k) := by
    refine broadcastInDim_apply _ b11 b (ix2 p k) (ix2 (0 : Fin 1) k) fun a => ?_
    match a with
    | ⟨0, _⟩ => rfl
    | ⟨1, _⟩ =>
      show k.val = if K = 1 then 0 else k.val
      split
      · have := k.isLt; omega
      · rfl
  rw [hd, hb]

/-- So the host's spelling of a layer — `dot_general`, the aggregation, the two repeated arrays, the maximum with
    a repeated zero — is the layer. -/
theorem host_layer128 (src dst : EdgeEnds) (enorm : EdgeWeights) (d : FVec Ideal S50000x1 .f32)
    (h : FVec Ideal S50000x128 .f32) (w : FVec Ideal S128x64 .f32)
    (b : FVec Ideal S1x64 .f32) :
    maximumf (addf (addf (aggregate src dst enorm (Host.dotGeneral (F := Ideal) dot_S50000x128_S128x64_S50000x64_1_0_0_1_n_n none h w))
        (mulf (Host.dotGeneral (F := Ideal) dot_S50000x128_S128x64_S50000x64_1_0_0_1_n_n none h w) (broadcastInDim S50000x64 ![0, 1] bcast_S50000x1_S50000x64_0_1 d)))
        (broadcastInDim S50000x64 ![0, 1] bcast_S1x64_S50000x64_0_1 b))
      (broadcastInDim S50000x64 ![] bcast_S_S50000x64 (constant (F := Ideal) S_ .f32 0x00000000#32))
    = layer (K := 128) src dst enorm d h w b := by
  rw [Cert.Dense.dotGeneral_eq rowsCols128 none h w]
  exact host_combine (N := 50000) (K := 64) _ _ d b _ _ _

theorem host_layer64 (src dst : EdgeEnds) (enorm : EdgeWeights) (d : FVec Ideal S50000x1 .f32)
    (h : FVec Ideal S50000x64 .f32) (w : FVec Ideal S64x64 .f32)
    (b : FVec Ideal S1x64 .f32) :
    maximumf (addf (addf (aggregate src dst enorm (Host.dotGeneral (F := Ideal) dot_S50000x64_S64x64_S50000x64_1_0_0_1_n_n none h w))
        (mulf (Host.dotGeneral (F := Ideal) dot_S50000x64_S64x64_S50000x64_1_0_0_1_n_n none h w) (broadcastInDim S50000x64 ![0, 1] bcast_S50000x1_S50000x64_0_1 d)))
        (broadcastInDim S50000x64 ![0, 1] bcast_S1x64_S50000x64_0_1 b))
      (broadcastInDim S50000x64 ![] bcast_S_S50000x64 (constant (F := Ideal) S_ .f32 0x00000000#32))
    = layer (K := 64) src dst enorm d h w b := by
  rw [Cert.Dense.dotGeneral_eq rowsCols64 none h w]
  exact host_combine (N := 50000) (K := 64) _ _ d b _ _ _

end Cert.ReferenceIdeal.Net

end
-- ==== Proof.Product0.lean ====
/-
  The first layer's product h · W, computed one block of 2000 rows per grid point.

  At grid point t the body loads rows 2000·t … 2000·t + 1999 of the left array and the whole of the 128 × 64 right
  array, multiplies them into a zero accumulator (the casts to the narrower float format are the identity on the
  extended reals) and stores the 2000 × 64 result, which is written back as rows 2000·t … of the output array. Entry
  (r, j) of a product is ∑ k, left (r, k) · right (k, j): it reads row r of the left factor only, so the 25 blocks
  together are the product of the whole arrays. The sums are the same sums term by term; nothing needs to be finite.
-/
import proofs.«146099_j20693152432417_1_alg».proof.Proof.Gen.KernelIdeal.Frame
import proofs.«146099_j20693152432417_1_alg».proof.Proof.LibRowsCols
import Idealize.ShloMosaic.Lib.Pipeline.Value
import Idealize.ShloMosaic.Lib.ValueIdx

noncomputable section

namespace Cert.KernelIdeal.Product0

open Cert.KernelIdeal Cert.KernelIdeal.Gen Idealize.ShloMosaic Idealize.ShloMosaic.ValueIdx Idealize.ShloMosaic.TcCoe Idealize.SL.Sem
open Cert.Dense (rowsTimes)

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction is "rows times columns": one contracted axis of extent 128, the left operand read at
    (row, k), the right one at (k, column). -/
theorem rowsCols : Cert.Dense.RowsCols (R := 2000) (K := 128) (N := 64) dot_S2000x128_S128x64_S2000x64_1_0_0_1_n_n :=
  ⟨rfl, rfl, fun _ _ => rfl, fun _ _ => rfl, fun _ _ => rfl, fun _ _ => rfl⟩

/-- What the body stores, entry by entry: the product of the two loaded blocks. -/
theorem stored_apply (x0 : Vec Ideal S2000x128 .f32) (x1 : Vec Ideal S128x64 .f32) (j : S2000x64.Idx) :
    k0_pay1 x0 x1 j = rowsTimes (M := 2000) (K := 128) (N := 64) x0 x1 j := by
  unfold k0_pay1
  exact Cert.Dense.matmul_zero_apply rowsCols none (truncf .bf16 x0 bitsLt_bf16_f32) (truncf .bf16 x1 bitsLt_bf16_f32) j

/-- The printed index maps over the 25 grid points: the left and the output blocks sit at block row t, the right
    array is one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row 0 … 24 of the output is some grid point's. -/
theorem block_onto : ∀ q : Fin 25, ∃ t : Fin cfg0.N, win0_2.index t = ![q.val, 0] :=
  (by decide +kernel : ∀ q : Fin 25, ∃ t : Fin grid0.N, win0_2.index t = ![q.val, 0])

/-- What grid point t writes back is block t of the product of the whole arrays. -/
theorem written_back (c : Dev nD) (t : Fin cfg0.N) :
    (dat0 V c).flushed 2 t = ((cfg0.win 2).blk t).view.read (Elt Ideal)
      (rowsTimes (M := 50000) (K := 128) (N := 64) (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x64) zero_offsets]
  obtain ⟨e0, e1, e2, e3, e4, e5⟩ := block_indices t
  funext j
  show k0_pay1 (fun y => V c main_arg0 (((cfg0.win 0).blk t).view.emb y)) (fun y => V c main_arg1 (((cfg0.win 1).blk t).view.emb y)) j
    = rowsTimes (M := 50000) (K := 128) (N := 64) (V c main_arg0) (V c main_arg1) (((cfg0.win 2).blk t).view.emb j)
  refine (stored_apply _ _ j).trans (Cert.Dense.rowsTimes_of_rows _ _ _ _ j _ (fun k => ?_) (fun k => ?_))
  · show V c main_arg0 (((cfg0.win 0).blk t).view.emb (ix2 (j 0 : Fin 2000) k))
      = V c main_arg0 (ix2 ((((cfg0.win 2).blk t).view.emb j) 0 : Fin 50000) k)
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg1 (((cfg0.win 1).blk t).view.emb (ix2 k (j 1 : Fin 64)))
      = V c main_arg1 (ix2 k ((((cfg0.win 2).blk t).view.emb j) 1 : Fin 64))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array lies in grid point t's block iff each coordinate lies in the block's range. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v33).slice (win0_2.rect t)).set ↔ _
  rw [View.set_slice_whole, Rect.mem_set_unit]
  exact Iff.rfl

/-- Row r of the output lies in the block of grid point r / 2000: the 25 blocks cover the array. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the region is the product of the two arrays as the region found them. -/
theorem whole (c : Dev nD) :
    (dat0 V c).arrAt 2 cfg0.N = rowsTimes (M := 50000) (K := 128) (N := 64) (V c main_arg0) (V c main_arg1) :=
  (dat0 V c).arrAt_eq_of_cover 2 _ (fun t _ => written_back V c t) covered

end Cert.KernelIdeal.Product0

end
-- ==== Proof.Product2.lean ====
/-
  The second layer's product h · W, computed one block of 2000 rows per grid point.

  At grid point t the body loads rows 2000·t … 2000·t + 1999 of the left array and the whole of the 64 × 64 right
  array, multiplies them into a zero accumulator (the casts to the narrower float format are the identity on the
  extended reals) and stores the 2000 × 64 result, which is written back as rows 2000·t … of the output array. Entry
  (r, j) of a product is ∑ k, left (r, k) · right (k, j): it reads row r of the left factor only, so the 25 blocks
  together are the product of the whole arrays. The sums are the same sums term by term; nothing needs to be finite.
-/
import proofs.«146099_j20693152432417_1_alg».proof.Proof.Gen.KernelIdeal.Frame
import proofs.«146099_j20693152432417_1_alg».proof.Proof.LibRowsCols
import Idealize.ShloMosaic.Lib.Pipeline.Value
import Idealize.ShloMosaic.Lib.ValueIdx

noncomputable section

namespace Cert.KernelIdeal.Product2

open Cert.KernelIdeal Cert.KernelIdeal.Gen Idealize.ShloMosaic Idealize.ShloMosaic.ValueIdx Idealize.ShloMosaic.TcCoe Idealize.SL.Sem
open Cert.Dense (rowsTimes)

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction is "rows times columns": one contracted axis of extent 64, the left operand read at
    (row, k), the right one at (k, column). -/
theorem rowsCols : Cert.Dense.RowsCols (R := 2000) (K := 64) (N := 64) dot_S2000x64_S64x64_S2000x64_1_0_0_1_n_n :=
  ⟨rfl, rfl, fun _ _ => rfl, fun _ _ => rfl, fun _ _ => rfl, fun _ _ => rfl⟩

/-- What the body stores, entry by entry: the product of the two loaded blocks. -/
theorem stored_apply (x0 : Vec Ideal S2000x64 .f32) (x1 : Vec Ideal S64x64 .f32) (j : S2000x64.Idx) :
    k2_pay1 x0 x1 j = rowsTimes (M := 2000) (K := 64) (N := 64) x0 x1 j := by
  unfold k2_pay1
  simp only [shapeCast_self]
  exact Cert.Dense.matmul_zero_apply rowsCols none (truncf .bf16 x0 bitsLt_bf16_f32) (truncf .bf16 x1 bitsLt_bf16_f32) j

/-- The printed index maps over the 25 grid points: the left and the output blocks sit at block row t, the right
    array is one block. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row 0 … 24 of the output is some grid point's. -/
theorem block_onto : ∀ q : Fin 25, ∃ t : Fin cfg2.N, win2_2.index t = ![q.val, 0] :=
  (by decide +kernel : ∀ q : Fin 25, ∃ t : Fin grid2.N, win2_2.index t = ![q.val, 0])

/-- What grid point t writes back is block t of the product of the whole arrays. -/
theorem written_back (c : Dev nD) (t : Fin cfg2.N) :
    (dat2 V c).flushed 2 t = ((cfg2.win 2).blk t).view.read (Elt Ideal)
      (rowsTimes (M := 50000) (K := 64) (N := 64) (V c main_v47) (V c main_arg3)) := by
  show (cfg2.win 2).cut (grid2.coords t) ((dat2 V c).after 2 t) = _
  rw [after2_2]
  unfold out2_2
  rw [View.canon_unit_zero zero_offsets]
  simp only [View.ld_unit_zero (S := S2000x64) zero_offsets, View.ld_unit_zero (S := S64x64) zero_offsets]
  obtain ⟨e0, e1, e2, e3, e4, e5⟩ := block_indices t
  funext j
  show k2_pay1 (fun y => V c main_v47 (((cfg2.win 0).blk t).view.emb y)) (fun y => V c main_arg3 (((cfg2.win 1).blk t).view.emb y)) j
    = rowsTimes (M := 50000) (K := 64) (N := 64) (V c main_v47) (V c main_arg3) (((cfg2.win 2).blk t).view.emb j)
  refine (stored_apply _ _ j).trans (Cert.Dense.rowsTimes_of_rows _ _ _ _ j _ (fun k => ?_) (fun k => ?_))
  · show V c main_v47 (((cfg2.win 0).blk t).view.emb (ix2 (j 0 : Fin 2000) k))
      = V c main_v47 (ix2 ((((cfg2.win 2).blk t).view.emb j) 0 : Fin 50000) k)
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * k.val = k.val; omega
  · show V c main_arg3 (((cfg2.win 1).blk t).view.emb (ix2 k (j 1 : Fin 64)))
      = V c main_arg3 (ix2 k ((((cfg2.win 2).blk t).view.emb j) 1 : Fin 64))
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the output array lies in grid point t's block iff each coordinate lies in the block's range. -/
theorem mem_block (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- Row r of the output lies in the block of grid point r / 2000: the 25 blocks cover the array. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after the region is the product of the two arrays as the region found them. -/
theorem whole (c : Dev nD) :
    (dat2 V c).arrAt 2 cfg2.N = rowsTimes (M := 50000) (K := 64) (N := 64) (V c main_v47) (V c main_arg3) :=
  (dat2 V c).arrAt_eq_of_cover 2 _ (fun t _ => written_back V c t) covered

end Cert.KernelIdeal.Product2

end
-- ==== Proof.Product4.lean ====
/-
  The third layer's product h · W, computed one block of 2000 rows per grid point.

  At grid point t the body loads rows 2000·t … 2000·t + 1999 of the left array and the whole of the 64 × 64 right
  array, multiplies them into a zero accumulator (the casts to the narrower float format are the identity on the
  extended reals) and stores the 2000 × 64 result, which is written back as rows 2000·t … of the output array. Entry
  (r, j) of a product is ∑ k, left (r, k) · right (k, j): it reads row r of the left factor only, so the 25 blocks
  together are the product of the whole arrays. The sums are the same sums term by term; nothing needs to be finite.
-/
import proofs.«146099_j20693152432417_1_alg».proof.Proof.Gen.KernelIdeal.Frame
import proofs.«146099_j20693152432417_1_alg».proof.Proof.LibRowsCols
import Idealize.ShloMosaic.Lib.Pipeline.Value
import Idealize.ShloMosaic.Lib.ValueIdx

noncomputable section

namespace Cert.KernelIdeal.Product4

open Cert.KernelIdeal Cert.KernelIdeal.Gen Idealize.ShloMosaic Idealize.ShloMosaic.ValueIdx Idealize.ShloMosaic.TcCoe Idealize.SL.Sem
open Cert.Dense (rowsTimes)

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction is "rows times columns": one contracted axis of extent 64, the left operand read at
    (row, k), the right one at (k, column). -/
theorem rowsCols : Cert.Dense.RowsCols (R := 2000) (K := 64) (N := 64) dot_S2000x64_S64x64_S2000x64_1_0_0_1_n_n :=
  ⟨rfl, rfl, fun _ _ => rfl, fun _ _ => rfl, fun _ _ => rfl, fun _ _ => rfl⟩

/-- What the body stores, entry by entry: the product of the two loaded blocks. -/
theorem stored_apply (x0 : Vec Ideal S2000x64 .f32) (x1 : Vec Ideal S64x64 .f32) (j : S2000x64.Idx) :
    k4_pay1 x0 x1 j = rowsTimes (M := 2000) (K := 64) (N := 64) x0 x1 j := by
  unfold k4_pay1
  simp only [shapeCast_self]
  exact Cert.Dense.matmul_zero_apply rowsCols none (truncf .bf16 x0 bitsLt_bf16_f32) (truncf .bf16 x1 bitsLt_bf16_f32) j

/-- The printed index maps over the 25 grid points: the left and the output blocks sit at block row t, the right
    array is one block. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every block row 0 … 24 of the output is some grid point's. -/
theorem block_onto : ∀ q : Fin 25, ∃ t : Fin cfg4.N, win4_2.index t = ![q.val, 0] :=
  (by decide +kernel : ∀ q : Fin 25, ∃ t : Fin grid4.N, win4_2.index t = ![q.val, 0])

/-- What grid point t writes back is block t of the product of the whole arrays. -/
theorem written_back (c : Dev nD) (t : Fin cfg4.N) :
    (dat4 V c).flushed 2 t = ((cfg4.win 2).blk t).view.read (Elt Ideal)
      (rowsTimes (M := 50000) (K := 64) (N := 64) (V c main_v62) (V c main_arg3)) := by
  show (cfg4.win 2).cut (grid4.coords t) ((dat4 V c).after 2 t) = _
  rw [after4_2]
  unfold out4_2
  rw [View.canon_unit_zero zero_offsets]
  simp only [View.ld_unit_zero (S := S2000x64) zero_offsets, View.ld_unit_zero (S := S64x64) zero_offsets]
  obtain ⟨e0, e1, e2, e3, e4, e5⟩ := block_indices t
  funext j
  show k4_pay1 (fun y => V c main_v62 (((cfg4.win 0).blk t).view.emb y)) (fun y => V c main_arg3 (((cfg4.win 1).blk t).view.emb y)) j
    = rowsTimes (M := 50000) (K := 64) (N := 64) (V c main_v62) (V c main_arg3) (((cfg4.win 2).blk t).view.emb j)
  refine (stored_apply _ _ j).trans (Cert.Dense.rowsTimes_of_rows _ _ _ _ j _ (fun k => ?_) (fun k => ?_))
  · show V c main_v62 (((cfg4.win 0).blk t).view.emb (ix2 (j 0 : Fin 2000) k))
      = V c main_v62 (ix2 ((((cfg4.win 2).blk t).view.emb j) 0 : Fin 50000) k)
    refine congrArg _ (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 64 + 1 * k.val = k.val; omega
  · show V c main_arg3 (((cfg4.win 1).blk t).view.emb (ix2 k (j 1 : Fin 64)))
      = V c main_arg3 (ix2 k ((((cfg4.win 2).blk t).view.emb j) 1 : Fin 64))
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega

/-- An index of the output array lies in grid point t's block iff each coordinate lies in the block's range. -/
theorem mem_block (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v63).slice (win4_2.rect t)).set ↔ _
  rw [View.set_slice_whole, Rect.mem_set_unit]
  exact Iff.rfl

/-- Row r of the output lies in the block of grid point r / 2000: the 25 blocks cover the array. -/
theorem covered (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := block_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The output array after the region is the product of the two arrays as the region found them. -/
theorem whole (c : Dev nD) :
    (dat4 V c).arrAt 2 cfg4.N = rowsTimes (M := 50000) (K := 64) (N := 64) (V c main_v62) (V c main_arg3) :=
  (dat4 V c).arrAt_eq_of_cover 2 _ (fun t _ => written_back V c t) covered

end Cert.KernelIdeal.Product4

end
-- ==== Proof.Product6.lean ====
/-
  The fourth layer's product h · W, computed one block of 2000 rows per grid point.

  At grid point t the body loads rows 2000·t … 2000·t + 1999 of the left array and the whole of the 64 × 64 right
  array, multiplies them into a zero accumulator (the casts to the narrower float format are the identity on the
  extended reals) and stores the 2000 × 64 result, which is written back as rows 2000·t … of the output array. Entry
  (r, j) of a product is ∑ k, left (r, k) · right (k, j): it reads row r of the left factor only, so the 25 blocks
  together are the product of the whole arrays. The sums are the same sums term by term; nothing needs to be finite.
-/
import proofs.«146099_j20693152432417_1_alg».proof.Proof.Gen.KernelIdeal.Frame
import proofs.«146099_j20693152432417_1_alg».proof.Proof.LibRowsCols
import Idealize.ShloMosaic.Lib.Pipeline.Value
import Idealize.ShloMosaic.Lib.ValueIdx

noncomputable section

namespace Cert.KernelIdeal.Product6

open Cert.KernelIdeal Cert.KernelIdeal.Gen Idealize.ShloMosaic Idealize.ShloMosaic.ValueIdx Idealize.ShloMosaic.TcCoe Idealize.SL.Sem
open Cert.Dense (rowsTimes)

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction is "rows times columns": one contracted axis of extent 64, the left operand read at
    (row, k), the right one at (k, column). -/
theorem rowsCols : Cert.Dense.RowsCols (R := 2000) (K := 64) (N := 64) dot_S2000x64_S64x64_S2000x64_1_0_0_1_n_n :=
  ⟨rfl, rfl, fun _ _ => rfl, fun _ _ => rfl, fun _ _ => rfl, fun _ _ => rfl⟩

/-- What the body stores, entry by entry: the product of the two loaded blocks. -/
theorem stored_apply (x0 : Vec Ideal S2000x64 .f32) (x1 : Vec Ideal S64x64 .f32) (j : S2000x64.Idx) :
    k6_pay1 x0 x1 j = rowsTimes (M := 2000) (K := 64) (N := 64) x0 x1 j := by
  unfold k6_pay1
  simp only [shapeCast_self]
  exact Cert.Dense.matmul_zero_apply rowsCols none (truncf .bf16 x0 bitsLt_bf16_f32) (truncf .bf16 x1 bitsLt_bf16_f32) j

/-- The printed index maps over the 25 grid points: the left and the output blocks sit at block row t, the right
    array is one block. -/
theorem block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Every block row 0 … 24 of the output is some grid point's. -/
theorem block_onto : ∀ q : Fin 25, ∃ t : Fin cfg6.N, win6_2.index t = ![q.val, 0] :=
  (by decide +kernel : ∀ q : Fin 25, ∃ t : Fin grid6.N, win6_2.index t = ![q.val, 0])

/-- What grid point t writes back is block t of the product of the whole arrays. -/
theorem written_back (c : Dev nD) (t : Fin cfg6.N) :
    (dat6 V c).flushed 2 t = ((cfg6.win 2).blk t).view.read (Elt Ideal)
      (rowsTimes (M := 50000) (K := 64) (N := 64) (V c main_v77) (V c main_arg3)) := by
  show (cfg6.win 2).cut (grid6.coords t) ((dat6 V c).after 2 t) = _
  rw [after6_2]
  unfold out6_2
  rw [View.canon_unit_zero zero_offsets]
  simp only [View.ld_unit_zero (S := S2000x64) zero_offsets, View.ld_unit_zero (S := S64x64) zero_offsets]
  obtain ⟨e0, e1, e2, e3, e4, e5⟩ := block_indices t
  funext j
  show k6_pay1 (fun y => V c main_v77 (((cfg6.win 0).blk t).view.emb y)) (fun y => V c main_arg3 (((cfg6.win 1).blk t).view.emb y)) j
    = rowsTimes (M := 50000) (K := 64) (N := 64) (V c main_v77) (V c main_arg3) (((cfg6.win 2).blk t).view.emb j)
  refine (stored_apply _ _ j).trans (Cert.Dense.rowsTimes_of_rows _ _ _ _ j _ (fun k => ?_) (fun k => ?_))
  · show V c main_v77 (((cfg6.win 0).blk t).view.emb (ix2 (j 0 : Fin 2000) k))
      = V c main_v77 (ix2 ((((cfg6.win 2).blk t).view.emb j) 0 : Fin 50000) k)
    refine congrArg _ (funext fun a => Fin.ext ?_)
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 64 + 1 * k.val = k.val; omega
  · show V c main_arg3 (((cfg6.win 1).blk t).view.emb (ix2 k (j 1 : Fin 64)))
      = V c main_arg3 (ix2 k ((((cfg6.win 2).blk t).view.emb j) 1 : Fin 64))
    refine congrArg _ (funext fun a => Fin.ext ?_)
    match a with
    | ⟨0, _⟩ => show win6_1.index t (0 : Fin 2) * 64 + 1 * k.val = k.val; omega
    | ⟨1, _⟩ => show win6_1.index t (1 : Fin 2) * 64 + 1 * (j 1).val = win6_2.index t (1 : Fin 2) * 64 + 1 * (j 1).val; omega

/-- An index of the output array lies in grid point t's block iff each coordinate lies in the block's range. -/
theorem mem_block (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v78).slice (win6_2.rect t)).set ↔ _
  rw [View.set_slice_whole, Rect.mem_set_unit]
  exact Iff.rfl

/-- Row r of the output lies in the block of grid point r / 2000: the 25 blocks cover the array. -/
theorem covered (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := block_onto ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 64 ≤ (i 1).val ∧ (i 1).val < win6_2.index t (1 : Fin 2) * 64 + 64; omega

/-- The output array after the region is the product of the two arrays as the region found them. -/
theorem whole (c : Dev nD) :
    (dat6 V c).arrAt 2 cfg6.N = rowsTimes (M := 50000) (K := 64) (N := 64) (V c main_v77) (V c main_arg3) :=
  (dat6 V c).arrAt_eq_of_cover 2 _ (fun t _ => written_back V c t) covered

end Cert.KernelIdeal.Product6

end
-- ==== Proof.Product8.lean ====
/-
  The fifth layer's product h · W, computed one block of 2000 rows per grid point.

  At grid point t the body loads rows 2000·t … 2000·t + 1999 of the left array and the whole of the 64 × 64 right
  array, multiplies them into a zero accumulator (the casts to the narrower float format are the identity on the
  extended reals) and stores the 2000 × 64 result, which is written back as rows 2000·t … of the output array. Entry
  (r, j) of a product is ∑ k, left (r, k) · right (k, j): it reads row r of the left factor only, so the 25 blocks
  together are the product of the whole arrays. The sums are the same sums term by term; nothing needs to be finite.
-/
import proofs.«146099_j20693152432417_1_alg».proof.Proof.Gen.KernelIdeal.Frame
import proofs.«146099_j20693152432417_1_alg».proof.Proof.LibRowsCols
import Idealize.ShloMosaic.Lib.Pipeline.Value
import Idealize.ShloMosaic.Lib.ValueIdx

noncomputable section

namespace Cert.KernelIdeal.Product8

open Cert.KernelIdeal Cert.KernelIdeal.Gen Idealize.ShloMosaic Idealize.ShloMosaic.ValueIdx Idealize.ShloMosaic.TcCoe Idealize.SL.Sem
open Cert.Dense (rowsTimes)

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction is "rows times columns": one contracted axis of extent 64, the left operand read at
    (row, k), the right one at (k, column). -/
theorem rowsCols : Cert.Dense.RowsCols (R := 2000) (K := 64) (N := 64) dot_S2000x64_S64x64_S2000x64_1_0_0_1_n_n :=
  ⟨rfl, rfl, fun _ _ => rfl, fun _ _ => rfl, fun _ _ => rfl, fun _ _ => rfl⟩

/-- What the body stores, entry by entry: the product of the two loaded blocks. -/
theorem stored_apply (x0 : Vec Ideal S2000x64 .f32) (x1 : Vec Ideal S64x64 .f32) (j : S2000x64.Idx) :
    k8_pay1 x0 x1 j = rowsTimes (M := 2000) (K := 64) (N := 64) x0 x1 j := by
  unfold k8_pay1
  simp only [shapeCast_self]
  exact Cert.Dense.matmul_zero_apply rowsCols none (truncf .bf16 x0 bitsLt_bf16_f32) (truncf .bf16 x1 bitsLt_bf16_f32) j

/-- The printed index maps over the 25 grid points: the left and the output blocks sit at block row t, the right
    array is one block. -/
theorem block_indices : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Every block row 0 … 24 of the output is some grid point's. -/
theorem block_onto : ∀ q : Fin 25, ∃ t : Fin cfg8.N, win8_2.index t = ![q.val, 0] :=
  (by decide +kernel : ∀ q : Fin 25, ∃ t : Fin grid8.N, win8_2.index t = ![q.val, 0])

/-- What grid point t writes back is block t of the product of the whole arrays. -/
theorem written_back (c : Dev nD) (t : Fin cfg8.N) :
    (dat8 V c).flushed 2 t = ((cfg8.win 2).blk t).view.read (Elt Ideal)
      (rowsTimes (M := 50000) (K := 64) (N := 64) (V c main_v92) (V c main_arg3)) := by
  show (cfg8.win 2).cut (grid8.coords t) ((dat8 V c).after 2 t) = _
  rw [after8_2]
  unfold out8_2
  rw [View.canon_unit_zero zero_offsets]
  simp only [View.ld_unit_zero (S := S2000x64) zero_offsets, View.ld_unit_zero (S := S64x64) zero_offsets]
  obtain ⟨e0, e1, e2, e3, e4, e5⟩ := block_indices t
  funext j
  show k8_pay1 (fun y => V c main_v92 (((cfg8.win 0).blk t).view.emb y)) (fun y => V c main_arg3 (((cfg8.win 1).blk t).view.emb y)) j
    = rowsTimes (M := 50000) (K := 64) (N := 64) (V c main_v92) (V c main_arg3) (((cfg8.win 2).blk t).view.emb j)
  refine (stored_apply _ _ j).trans (Cert.Dense.rowsTimes_of_rows _ _ _ _ j _ (fun k => ?_) (fun k => ?_))
  · show V c main_v92 (((cfg8.win 0).blk t).view.emb (ix2 (j 0 : Fin 2000) k))
      = V c main_v92 (ix2 ((((cfg8.win 2).blk t).view.emb j) 0 : Fin 50000) k)
    refine congrArg _ (funext fun a => Fin.ext ?_)
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 64 + 1 * k.val = k.val; omega
  · show V c main_arg3 (((cfg8.win 1).blk t).view.emb (ix2 k (j 1 : Fin 64)))
      = V c main_arg3 (ix2 k ((((cfg8.win 2).blk t).view.emb j) 1 : Fin 64))
    refine congrArg _ (funext fun a => Fin.ext ?_)
    match a with
    | ⟨0, _⟩ => show win8_1.index t (0 : Fin 2) * 64 + 1 * k.val = k.val; omega
    | ⟨1, _⟩ => show win8_1.index t (1 : Fin 2) * 64 + 1 * (j 1).val = win8_2.index t (1 : Fin 2) * 64 + 1 * (j 1).val; omega

/-- An index of the output array lies in grid point t's block iff each coordinate lies in the block's range. -/
theorem mem_block (t : Fin cfg8.N) (i : S50000x64.Idx) :
    i ∈ ((cfg8.win 2).blk t).view.set ↔ ∀ a : Fin 2, win8_2.index t a * S2000x64.size a ≤ (i a).val ∧ (i a).val < win8_2.index t a * S2000x64.size a + S2000x64.size a := by
  show i ∈ ((View.whole main_v93).slice (win8_2.rect t)).set ↔ _
  rw [View.set_slice_whole, Rect.mem_set_unit]
  exact Iff.rfl

/-- Row r of the output lies in the block of grid point r / 2000: the 25 blocks cover the array. -/
theorem covered (i : S50000x64.Idx) :
    ∃ t : Fin cfg8.N, (cfg8.win 2).flush t = true ∧ i ∈ ((cfg8.win 2).blk t).view.set := by
  have hi0 : (i 0).val < 50000 := (i 0).isLt
  have hi1 : (i 1).val < 64 := (i 1).isLt
  obtain ⟨t, ht⟩ := block_onto ⟨(i 0).val / 2000, by omega⟩
  have q0 : win8_2.index t (0 : Fin 2) = (i 0).val / 2000 := congrFun ht 0
  have q1 : win8_2.index t (1 : Fin 2) = 0 := congrFun ht 1
  refine ⟨t, flush8_2 t, ?_⟩
  rw [mem_block]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 64 ≤ (i 1).val ∧ (i 1).val < win8_2.index t (1 : Fin 2) * 64 + 64; omega

/-- The output array after the region is the product of the two arrays as the region found them. -/
theorem whole (c : Dev nD) :
    (dat8 V c).arrAt 2 cfg8.N = rowsTimes (M := 50000) (K := 64) (N := 64) (V c main_v92) (V c main_arg3) :=
  (dat8 V c).arrAt_eq_of_cover 2 _ (fun t _ => written_back V c t) covered

end Cert.KernelIdeal.Product8

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Combine1.lean ====
/-
  The first layer's combination max ((agg + h · d) + b) 0, computed one block of 2000 rows per grid point.

  At grid point t the body loads rows 2000·t … 2000·t + 1999 of the aggregated array, of the product h and of the
  one-column array d of self-loop weights, and the one-row bias b; it repeats the column along the rows and the row down
  the rows, adds, and takes the maximum with zero. Entry (r, k) of the result reads entry (r, k) of agg and h, entry
  (r, 0) of d and entry (0, k) of b — row r only — so the 25 blocks together are the combination of the whole arrays.
  Both sides are the same expression entry by entry; nothing needs to be finite.
-/
import proofs.«146099_j20693152432417_1_alg».proof.Proof.Gen.KernelIdeal.Frame
import proofs.«146099_j20693152432417_1_alg».proof.Proof.LibGcnRows
import proofs.«146099_j20693152432417_1_alg».proof.Proof.LibColumnLayout
import Idealize.ShloMosaic.Lib.Pipeline.Value
import Idealize.ShloMosaic.Lib.ValueIdx
import Idealize.ShloMosaic.Lib.ValueLayout

noncomputable section

namespace Cert.KernelIdeal.Combine1

open Cert.KernelIdeal Cert.KernelIdeal.Gen Idealize.ShloMosaic Idealize.ShloMosaic.ValueIdx Idealize.ShloMosaic.TcCoe Idealize.SL.Sem
open Cert.Gcn (combine)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the combination of the four loaded blocks. -/
theorem stored_apply (x0 x1 : Vec Ideal S2000x64 .f32) (x2 : Vec Ideal S2000x1 .f32) (x3 : Vec Ideal S1x64 .f32)
    (p : Fin 2000) (k : Fin 64) :
    k1_pay1 x0 x1 x2 x3 (ix2 p k) = combine (N := 2000) (K := 64) x0 x1 x2 x3 (ix2 p k) := by
  unfold k1_pay1
  simp only [shapeCast_self]
  rw [Cert.Gcn.combine_apply]
  show max ((x0 (ix2 p k) + x1 (ix2 p k) * broadcastTo S2000x64 x2 broadcasts_S2000x1_S2000x64 (ix2 p k))
      + broadcastTo S2000x64 x3 broadcasts_S1x64_S2000x64 (ix2 p k)) (Ideal.ofBits .f32 0x00000000#32) = _
  rw [ColumnLayout.broadcastTo_a1_ab_apply, broadcastTo_1b_ab_apply]

/-- The printed index maps over the 25 grid points: the three row-blocked inputs and the output sit at block row t,
    the bias row is one block. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 25 :=
  (by decide +kernel : ∀ t : Fin grid1.N, _)

/-- Every block row 0 … 24 of the output is some grid point's. -/
theorem block_onto : ∀ q : Fin 25, ∃ t : Fin cfg1.N, win1_4.index t = ![q.val, 0] :=
  (by decide +kernel : ∀ q : Fin 25, ∃ t : Fin grid1.N, win1_4.index t = ![q.val, 0])

/-- What grid point t writes back is block t of the combination of the whole arrays. -/
theorem written_back (c : Dev nD) (t : Fin cfg1.N) :
    (dat1 V c).flushed 4 t = ((cfg1.win 4).blk t).view.read (Elt Ideal)
      (combine (N := 50000) (K := 64) (V c main_v46) (V c main_v33) (V c main_v30) (V c main_v31)) := by
  show (cfg1.win 4).cut (grid1.coords t) ((dat1 V c).after 4 t) = _
  rw [after1_4]
  unfold out1_4
  rw [View.canon_unit_zero zero_offsets]
  simp only [View.ld_unit_zero (S := S2000x64) zero_offsets, View.ld_unit_zero (S := S2000x1) zero_offsets,
    View.ld_unit_zero (S := S1x64) zero_offsets]
  obtain ⟨e0, e1, e2, e3, e4, e5, e6, e7, e8, e9, ht⟩ := block_indices t
  funext j
  obtain ⟨p, k, rfl⟩ : ∃ (p : Fin 2000) (k : Fin 64), j = ix2 p k := ⟨j 0, j 1, eq_ix2 j⟩
  have hp : p.val < 2000 := p.isLt
  have hrow : ((cfg1.win 4).blk t).view.emb (ix2 p k) = ix2 (⟨t.val * 2000 + p.val, by omega⟩ : Fin 50000) k := by
    funext a; apply Fin.ext
    match a with
    | ⟨0, _⟩ => show win1_4.index t (0 : Fin 2) * 2000 + 1 * p.val = t.val * 2000 + p.val; omega
    | ⟨1, _⟩ => show win1_4.index t (1 : Fin 2) * 64 + 1 * k.val = k.val; omega
  show k1_pay1 (fun y => V c main_v46 (((cfg1.win 0).blk t).view.emb y)) (fun y => V c main_v33 (((cfg1.win 1).blk t).view.emb y))
      (fun y => V c main_v30 (((cfg1.win 2).blk t).view.emb y)) (fun y => V c main_v31 (((cfg1.win 3).blk t).view.emb y)) (ix2 p k)
    = combine (N := 50000) (K := 64) (V c main_v46) (V c main_v33) (V c main_v30) (V c main_v31) (((cfg1.win 4).blk t).view.emb (ix2 p k))
  rw [hrow]
  refine (stored_apply _ _ _ _ p k).trans (Cert.Gcn.combine_congr _ _ _ _ _ _ _ _ _ p k ?_ ?_ ?_ ?_)
  · show V c main_v46 (((cfg1.win 0).blk t).view.emb (ix2 p k)) = V c main_v46 (ix2 (⟨t.val * 2000 + p.val, by omega⟩ : Fin 50000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 64 + 1 * k.val = k.val; omega
  · show V c main_v33 (((cfg1.win 1).blk t).view.emb (ix2 p k)) = V c main_v33 (ix2 (⟨t.val * 2000 + p.val, by omega⟩ : Fin 50000) k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 64 + 1 * k.val = k.val; omega
  · show V c main_v30 (((cfg1.win 2).blk t).view.emb (ix2 p (0 : Fin 1))) = V c main_v30 (ix2 (⟨t.val * 2000 + p.val, by omega⟩ : Fin 50000) (0 : Fin 1))
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_v31 (((cfg1.win 3).blk t).view.emb (ix2 (0 : Fin 1) k)) = V c main_v31 (ix2 (0 : Fin 1) k)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega

/-- An index of the output array lies in grid point t's block iff each coordinate lies in the block's range. -/
theorem mem_block (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v47).slice (win1_4.rect t)).set ↔ _
  rw [View.set_slice_whole, Rect.mem_set_unit]
  exact Iff.rfl

/-- Row r of the output lies in the block of grid point r / 2000: the 25 blocks cover the array. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := block_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- The output array after the region is the combination of the four arrays as the region found them. -/
theorem whole (c : Dev nD) :
    (dat1 V c).arrAt 4 cfg1.N = combine (N := 50000) (K := 64) (V c main_v46) (V c main_v33) (V c main_v30) (V c main_v31) :=
  (dat1 V c).arrAt_eq_of_cover 4 _ (fun t _ => written_back V c t) covered

end Cert.KernelIdeal.Combine1

end
-- ==== Proof.Combine3.lean ====
/-
  The second layer's combination max ((agg + h · d) + b) 0, computed one block of 2000 rows per grid point.

  At grid point t the body loads rows 2000·t … 2000·t + 1999 of the aggregated array, of the product h and of the
  one-column array d of self-loop weights, and the one-row bias b; it repeats the column along the rows and the row down
  the rows, adds, and takes the maximum with zero. Entry (r, k) of the result reads entry (r, k) of agg and h, entry
  (r, 0) of d and entry (0, k) of b — row r only — so the 25 blocks together are the combination of the whole arrays.
  Both sides are the same expression entry by entry; nothing needs to be finite.
-/
import proofs.«146099_j20693152432417_1_alg».proof.Proof.Gen.KernelIdeal.Frame
import proofs.«146099_j20693152432417_1_alg».proof.Proof.LibGcnRows
import proofs.«146099_j20693152432417_1_alg».proof.Proof.LibColumnLayout
import Idealize.ShloMosaic.Lib.Pipeline.Value
import Idealize.ShloMosaic.Lib.ValueIdx
import Idealize.ShloMosaic.Lib.ValueLayout

noncomputable section

namespace Cert.KernelIdeal.Combine3

open Cert.KernelIdeal Cert.KernelIdeal.Gen Idealize.ShloMosaic Idealize.ShloMosaic.ValueIdx Idealize.ShloMosaic.TcCoe Idealize.SL.Sem
open Cert.Gcn (combine)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the combination of the four loaded blocks. -/
theorem stored_apply (x0 x1 : Vec Ideal S2000x64 .f32) (x2 : Vec Ideal S2000x1 .f32) (x3 : Vec Ideal S1x64 .f32)
    (p : Fin 2000) (k : Fin 64) :
    k3_pay1 x0 x1 x2 x3 (ix2 p k) = combine (N := 2000) (K := 64) x0 x1 x2 x3 (ix2 p k) := by
  unfold k3_pay1
  simp only [shapeCast_self]
  rw [Cert.Gcn.combine_apply]
  show max ((x0 (ix2 p k) + x1 (ix2 p k) * broadcastTo S2000x64 x2 broadcasts_S2000x1_S2000x64 (ix2 p k))
      + broadcastTo S2000x64 x3 broadcasts_S1x64_S2000x64 (ix2 p k)) (Ideal.ofBits .f32 0x00000000#32) = _
  rw [ColumnLayout.broadcastTo_a1_ab_apply, broadcastTo_1b_ab_apply]

/-- The printed index maps over the 25 grid points: the three row-blocked inputs and the output sit at block row t,
    the bias row is one block. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 25 :=
  (by decide +kernel : ∀ t : Fin grid3.N, _)

/-- Every block row 0 … 24 of the output is some grid point's. -/
theorem block_onto : ∀ q : Fin 25, ∃ t : Fin cfg3.N, win3_4.index t = ![q.val, 0] :=
  (by decide +kernel : ∀ q : Fin 25, ∃ t : Fin grid3.N, win3_4.index t = ![q.val, 0])

/-- What grid point t writes back is block t of the combination of the whole arrays. -/
theorem written_back (c : Dev nD) (t : Fin cfg3.N) :
    (dat3 V c).flushed 4 t = ((cfg3.win 4).blk t).view.read (Elt Ideal)
      (combine (N := 50000) (K := 64) (V c main_v61) (V c main_v48) (V c main_v30) (V c main_v32)) := by
  show (cfg3.win 4).cut (grid3.coords t) ((dat3 V c).after 4 t) = _
  rw [after3_4]
  unfold out3_4
  rw [View.canon_unit_zero zero_offsets]
  simp only [View.ld_unit_zero (S := S2000x64) zero_offsets, View.ld_unit_zero (S := S2000x1) zero_offsets,
    View.ld_unit_zero (S := S1x64) zero_offsets]
  obtain ⟨e0, e1, e2, e3, e4, e5, e6, e7, e8, e9, ht⟩ := block_indices t
  funext j
  obtain ⟨p, k, rfl⟩ : ∃ (p : Fin 2000) (k : Fin 64), j = ix2 p k := ⟨j 0, j 1, eq_ix2 j⟩
  have hp : p.val < 2000 := p.isLt
  have hrow : ((cfg3.win 4).blk t).view.emb (ix2 p k) = ix2 (⟨t.val * 2000 + p.val, by omega⟩ : Fin 50000) k := by
    funext a; apply Fin.ext
    match a with
    | ⟨0, _⟩ => show win3_4.index t (0 : Fin 2) * 2000 + 1 * p.val = t.val * 2000 + p.val; omega
    | ⟨1, _⟩ => show win3_4.index t (1 : Fin 2) * 64 + 1 * k.val = k.val; omega
  show k3_pay1 (fun y => V c main_v61 (((cfg3.win 0).blk t).view.emb y)) (fun y => V c main_v48 (((cfg3.win 1).blk t).view.emb y))
      (fun y => V c main_v30 (((cfg3.win 2).blk t).view.emb y)) (fun y => V c main_v32 (((cfg3.win 3).blk t).view.emb y)) (ix2 p k)
    = combine (N := 50000) (K := 64) (V c main_v61) (V c main_v48) (V c main_v30) (V c main_v32) (((cfg3.win 4).blk t).view.emb (ix2 p k))
  rw [hrow]
  refine (stored_apply _ _ _ _ p k).trans (Cert.Gcn.combine_congr _ _ _ _ _ _ _ _ _ p k ?_ ?_ ?_ ?_)
  · show V c main_v61 (((cfg3.win 0).blk t).view.emb (ix2 p k)) = V c main_v61 (ix2 (⟨t.val * 2000 + p.val, by omega⟩ : Fin 50000) k)
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 64 + 1 * k.val = k.val; omega
  · show V c main_v48 (((cfg3.win 1).blk t).view.emb (ix2 p k)) = V c main_v48 (ix2 (⟨t.val * 2000 + p.val, by omega⟩ : Fin 50000) k)
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 64 + 1 * k.val = k.val; omega
  · show V c main_v30 (((cfg3.win 2).blk t).view.emb (ix2 p (0 : Fin 1))) = V c main_v30 (ix2 (⟨t.val * 2000 + p.val, by omega⟩ : Fin 50000) (0 : Fin 1))
    refine congrArg _ (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  · show V c main_v32 (((cfg3.win 3).blk t).view.emb (ix2 (0 : Fin 1) k)) = V c main_v32 (ix2 (0 : Fin 1) k)
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * k.val = k.val; omega

/-- An index of the output array lies in grid point t's block iff each coordinate lies in the block's range. -/
theorem mem_block (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v62).slice (win3_4.rect t)).set ↔ _
  rw [View.set_slice_whole, Rect.mem_set_unit]
  exact Iff.rfl

/-- Row r of the output lies in the block of grid point r / 2000: the 25 blocks cover the array. -/
theorem covered (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := block_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- The output array after the region is the combination of the four arrays as the region found them. -/
theorem whole (c : Dev nD) :
    (dat3 V c).arrAt 4 cfg3.N = combine (N := 50000) (K := 64) (V c main_v61) (V c main_v48) (V c main_v30) (V c main_v32) :=
  (dat3 V c).arrAt_eq_of_cover 4 _ (fun t _ => written_back V c t) covered

end Cert.KernelIdeal.Combine3

end
-- ==== Proof.Combine5.lean ====
/-
  The third layer's combination max ((agg + h · d) + b) 0, computed one block of 2000 rows per grid point.

  At grid point t the body loads rows 2000·t … 2000·t + 1999 of the aggregated array, of the product h and of the
  one-column array d of self-loop weights, and the one-row bias b; it repeats the column along the rows and the row down
  the rows, adds, and takes the maximum with zero. Entry (r, k) of the result reads entry (r, k) of agg and h, entry
  (r, 0) of d and entry (0, k) of b — row r only — so the 25 blocks together are the combination of the whole arrays.
  Both sides are the same expression entry by entry; nothing needs to be finite.
-/
import proofs.«146099_j20693152432417_1_alg».proof.Proof.Gen.KernelIdeal.Frame
import proofs.«146099_j20693152432417_1_alg».proof.Proof.LibGcnRows
import proofs.«146099_j20693152432417_1_alg».proof.Proof.LibColumnLayout
import Idealize.ShloMosaic.Lib.Pipeline.Value
import Idealize.ShloMosaic.Lib.ValueIdx
import Idealize.ShloMosaic.Lib.ValueLayout

noncomputable section

namespace Cert.KernelIdeal.Combine5

open Cert.KernelIdeal Cert.KernelIdeal.Gen Idealize.ShloMosaic Idealize.ShloMosaic.ValueIdx Idealize.ShloMosaic.TcCoe Idealize.SL.Sem
open Cert.Gcn (combine)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the combination of the four loaded blocks. -/
theorem stored_apply (x0 x1 : Vec Ideal S2000x64 .f32) (x2 : Vec Ideal S2000x1 .f32) (x3 : Vec Ideal S1x64 .f32)
    (p : Fin 2000) (k : Fin 64) :
    k5_pay1 x0 x1 x2 x3 (ix2 p k) = combine (N := 2000) (K := 64) x0 x1 x2 x3 (ix2 p k) := by
  unfold k5_pay1
  simp only [shapeCast_self]
  rw [Cert.Gcn.combine_apply]
  show max ((x0 (ix2 p k) + x1 (ix2 p k) * broadcastTo S2000x64 x2 broadcasts_S2000x1_S2000x64 (ix2 p k))
      + broadcastTo S2000x64 x3 broadcasts_S1x64_S2000x64 (ix2 p k)) (Ideal.ofBits .f32 0x00000000#32) = _
  rw [ColumnLayout.broadcastTo_a1_ab_apply, broadcastTo_1b_ab_apply]

/-- The printed index maps over the 25 grid points: the three row-blocked inputs and the output sit at block row t,
    the bias row is one block. -/
theorem block_indices : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 25 :=
  (by decide +kernel : ∀ t : Fin grid5.N, _)

/-- Every block row 0 … 24 of the output is some grid point's. -/
theorem block_onto : ∀ q : Fin 25, ∃ t : Fin cfg5.N, win5_4.index t = ![q.val, 0] :=
  (by decide +kernel : ∀ q : Fin 25, ∃ t : Fin grid5.N, win5_4.index t = ![q.val, 0])

/-- What grid point t writes back is block t of the combination of the whole arrays. -/
theorem written_back (c : Dev nD) (t : Fin cfg5.N) :
    (dat5 V c).flushed 4 t = ((cfg5.win 4).blk t).view.read (Elt Ideal)
      (combine (N := 50000) (K := 64) (V c main_v76) (V c main_v63) (V c main_v30) (V c main_v32)) := by
  show (cfg5.win 4).cut (grid5.coords t) ((dat5 V c).after 4 t) = _
  rw [after5_4]
  unfold out5_4
  rw [View.canon_unit_zero zero_offsets]
  simp only [View.ld_unit_zero (S := S2000x64) zero_offsets, View.ld_unit_zero (S := S2000x1) zero_offsets,
    View.ld_unit_zero (S := S1x64) zero_offsets]
  obtain ⟨e0, e1, e2, e3, e4, e5, e6, e7, e8, e9, ht⟩ := block_indices t
  funext j
  obtain ⟨p, k, rfl⟩ : ∃ (p : Fin 2000) (k : Fin 64), j = ix2 p k := ⟨j 0, j 1, eq_ix2 j⟩
  have hp : p.val < 2000 := p.isLt
  have hrow : ((cfg5.win 4).blk t).view.emb (ix2 p k) = ix2 (⟨t.val * 2000 + p.val, by omega⟩ : Fin 50000) k := by
    funext a; apply Fin.ext
    match a with
    | ⟨0, _⟩ => show win5_4.index t (0 : Fin 2) * 2000 + 1 * p.val = t.val * 2000 + p.val; omega
    | ⟨1, _⟩ => show win5_4.index t (1 : Fin 2) * 64 + 1 * k.val = k.val; omega
  show k5_pay1 (fun y => V c main_v76 (((cfg5.win 0).blk t).view.emb y)) (fun y => V c main_v63 (((cfg5.win 1).blk t).view.emb y))
      (fun y => V c main_v30 (((cfg5.win 2).blk t).view.emb y)) (fun y => V c main_v32 (((cfg5.win 3).blk t).view.emb y)) (ix2 p k)
    = combine (N := 50000) (K := 64) (V c main_v76) (V c main_v63) (V c main_v30) (V c main_v32) (((cfg5.win 4).blk t).view.emb (ix2 p k))
  rw [hrow]
  refine (stored_apply _ _ _ _ p k).trans (Cert.Gcn.combine_congr _ _ _ _ _ _ _ _ _ p k ?_ ?_ ?_ ?_)
  · show V c main_v76 (((cfg5.win 0).blk t).view.emb (ix2 p k)) = V c main_v76 (ix2 (⟨t.val * 2000 + p.val, by omega⟩ : Fin 50000) k)
    refine congrArg _ (funext fun a => Fin.ext ?_)
    match a with
    | ⟨0, _⟩ => show win5_0.index t (0 : Fin 2) * 2000 + 1 * p.val = t.val * 2000 + p.val; omega
    | ⟨1, _⟩ => show win5_0.index t (1 : Fin 2) * 64 + 1 * k.val = k.val; omega
  · show V c main_v63 (((cfg5.win 1).blk t).view.emb (ix2 p k)) = V c main_v63 (ix2 (⟨t.val * 2000 + p.val, by omega⟩ : Fin 50000) k)
    refine congrArg _ (funext fun a => Fin.ext ?_)
    match a with
    | ⟨0, _⟩ => show win5_1.index t (0 : Fin 2) * 2000 + 1 * p.val = t.val * 2000 + p.val; omega
    | ⟨1, _⟩ => show win5_1.index t (1 : Fin 2) * 64 + 1 * k.val = k.val; omega
  · show V c main_v30 (((cfg5.win 2).blk t).view.emb (ix2 p (0 : Fin 1))) = V c main_v30 (ix2 (⟨t.val * 2000 + p.val, by omega⟩ : Fin 50000) (0 : Fin 1))
    refine congrArg _ (funext fun a => Fin.ext ?_)
    match a with
    | ⟨0, _⟩ => show win5_2.index t (0 : Fin 2) * 2000 + 1 * p.val = t.val * 2000 + p.val; omega
    | ⟨1, _⟩ => show win5_2.index t (1 : Fin 2) * 1 + 1 * 0 = 0; omega
  · show V c main_v32 (((cfg5.win 3).blk t).view.emb (ix2 (0 : Fin 1) k)) = V c main_v32 (ix2 (0 : Fin 1) k)
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * k.val = k.val; omega

/-- An index of the output array lies in grid point t's block iff each coordinate lies in the block's range. -/
theorem mem_block (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v77).slice (win5_4.rect t)).set ↔ _
  rw [View.set_slice_whole, Rect.mem_set_unit]
  exact Iff.rfl

/-- Row r of the output lies in the block of grid point r / 2000: the 25 blocks cover the array. -/
theorem covered (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := block_onto ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_block]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 64 ≤ (i 1).val ∧ (i 1).val < win5_4.index t (1 : Fin 2) * 64 + 64; omega

/-- The output array after the region is the combination of the four arrays as the region found them. -/
theorem whole (c : Dev nD) :
    (dat5 V c).arrAt 4 cfg5.N = combine (N := 50000) (K := 64) (V c main_v76) (V c main_v63) (V c main_v30) (V c main_v32) :=
  (dat5 V c).arrAt_eq_of_cover 4 _ (fun t _ => written_back V c t) covered

end Cert.KernelIdeal.Combine5

end
-- ==== Proof.Combine7.lean ====
/-
  The fourth layer's combination max ((agg + h · d) + b) 0, computed one block of 2000 rows per grid point.

  At grid point t the body loads rows 2000·t … 2000·t + 1999 of the aggregated array, of the product h and of the
  one-column array d of self-loop weights, and the one-row bias b; it repeats the column along the rows and the row down
  the rows, adds, and takes the maximum with zero. Entry (r, k) of the result reads entry (r, k) of agg and h, entry
  (r, 0) of d and entry (0, k) of b — row r only — so the 25 blocks together are the combination of the whole arrays.
  Both sides are the same expression entry by entry; nothing needs to be finite.
-/
import proofs.«146099_j20693152432417_1_alg».proof.Proof.Gen.KernelIdeal.Frame
import proofs.«146099_j20693152432417_1_alg».proof.Proof.LibGcnRows
import proofs.«146099_j20693152432417_1_alg».proof.Proof.LibColumnLayout
import Idealize.ShloMosaic.Lib.Pipeline.Value
import Idealize.ShloMosaic.Lib.ValueIdx
import Idealize.ShloMosaic.Lib.ValueLayout

noncomputable section

namespace Cert.KernelIdeal.Combine7

open Cert.KernelIdeal Cert.KernelIdeal.Gen Idealize.ShloMosaic Idealize.ShloMosaic.ValueIdx Idealize.ShloMosaic.TcCoe Idealize.SL.Sem
open Cert.Gcn (combine)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the combination of the four loaded blocks. -/
theorem stored_apply (x0 x1 : Vec Ideal S2000x64 .f32) (x2 : Vec Ideal S2000x1 .f32) (x3 : Vec Ideal S1x64 .f32)
    (p : Fin 2000) (k : Fin 64) :
    k7_pay1 x0 x1 x2 x3 (ix2 p k) = combine (N := 2000) (K := 64) x0 x1 x2 x3 (ix2 p k) := by
  unfold k7_pay1
  simp only [shapeCast_self]
  rw [Cert.Gcn.combine_apply]
  show max ((x0 (ix2 p k) + x1 (ix2 p k) * broadcastTo S2000x64 x2 broadcasts_S2000x1_S2000x64 (ix2 p k))
      + broadcastTo S2000x64 x3 broadcasts_S1x64_S2000x64 (ix2 p k)) (Ideal.ofBits .f32 0x00000000#32) = _
  rw [ColumnLayout.broadcastTo_a1_ab_apply, broadcastTo_1b_ab_apply]

/-- The printed index maps over the 25 grid points: the three row-blocked inputs and the output sit at block row t,
    the bias row is one block. -/
theorem block_indices : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 ∧ t.val < 25 :=
  (by decide +kernel : ∀ t : Fin grid7.N, _)

/-- Every block row 0 … 24 of the output is some grid point's. -/
theorem block_onto : ∀ q : Fin 25, ∃ t : Fin cfg7.N, win7_4.index t = ![q.val, 0] :=
  (by decide +kernel : ∀ q : Fin 25, ∃ t : Fin grid7.N, win7_4.index t = ![q.val, 0])

/-- What grid point t writes back is block t of the combination of the whole arrays. -/
theorem written_back (c : Dev nD) (t : Fin cfg7.N) :
    (dat7 V c).flushed 4 t = ((cfg7.win 4).blk t).view.read (Elt Ideal)
      (combine (N := 50000) (K := 64) (V c main_v91) (V c main_v78) (V c main_v30) (V c main_v32)) := by
  show (cfg7.win 4).cut (grid7.coords t) ((dat7 V c).after 4 t) = _
  rw [after7_4]
  unfold out7_4
  rw [View.canon_unit_zero zero_offsets]
  simp only [View.ld_unit_zero (S := S2000x64) zero_offsets, View.ld_unit_zero (S := S2000x1) zero_offsets,
    View.ld_unit_zero (S := S1x64) zero_offsets]
  obtain ⟨e0, e1, e2, e3, e4, e5, e6, e7, e8, e9, ht⟩ := block_indices t
  funext j
  obtain ⟨p, k, rfl⟩ : ∃ (p : Fin 2000) (k : Fin 64), j = ix2 p k := ⟨j 0, j 1, eq_ix2 j⟩
  have hp : p.val < 2000 := p.isLt
  have hrow : ((cfg7.win 4).blk t).view.emb (ix2 p k) = ix2 (⟨t.val * 2000 + p.val, by omega⟩ : Fin 50000) k := by
    funext a; apply Fin.ext
    match a with
    | ⟨0, _⟩ => show win7_4.index t (0 : Fin 2) * 2000 + 1 * p.val = t.val * 2000 + p.val; omega
    | ⟨1, _⟩ => show win7_4.index t (1 : Fin 2) * 64 + 1 * k.val = k.val; omega
  show k7_pay1 (fun y => V c main_v91 (((cfg7.win 0).blk t).view.emb y)) (fun y => V c main_v78 (((cfg7.win 1).blk t).view.emb y))
      (fun y => V c main_v30 (((cfg7.win 2).blk t).view.emb y)) (fun y => V c main_v32 (((cfg7.win 3).blk t).view.emb y)) (ix2 p k)
    = combine (N := 50000) (K := 64) (V c main_v91) (V c main_v78) (V c main_v30) (V c main_v32) (((cfg7.win 4).blk t).view.emb (ix2 p k))
  rw [hrow]
  refine (stored_apply _ _ _ _ p k).trans (Cert.Gcn.combine_congr _ _ _ _ _ _ _ _ _ p k ?_ ?_ ?_ ?_)
  · show V c main_v91 (((cfg7.win 0).blk t).view.emb (ix2 p k)) = V c main_v91 (ix2 (⟨t.val * 2000 + p.val, by omega⟩ : Fin 50000) k)
    refine congrArg _ (funext fun a => Fin.ext ?_)
    match a with
    | ⟨0, _⟩ => show win7_0.index t (0 : Fin 2) * 2000 + 1 * p.val = t.val * 2000 + p.val; omega
    | ⟨1, _⟩ => show win7_0.index t (1 : Fin 2) * 64 + 1 * k.val = k.val; omega
  · show V c main_v78 (((cfg7.win 1).blk t).view.emb (ix2 p k)) = V c main_v78 (ix2 (⟨t.val * 2000 + p.val, by omega⟩ : Fin 50000) k)
    refine congrArg _ (funext fun a => Fin.ext ?_)
    match a with
    | ⟨0, _⟩ => show win7_1.index t (0 : Fin 2) * 2000 + 1 * p.val = t.val * 2000 + p.val; omega
    | ⟨1, _⟩ => show win7_1.index t (1 : Fin 2) * 64 + 1 * k.val = k.val; omega
  · show V c main_v30 (((cfg7.win 2).blk t).view.emb (ix2 p (0 : Fin 1))) = V c main_v30 (ix2 (⟨t.val * 2000 + p.val, by omega⟩ : Fin 50000) (0 : Fin 1))
    refine congrArg _ (funext fun a => Fin.ext ?_)
    match a with
    | ⟨0, _⟩ => show win7_2.index t (0 : Fin 2) * 2000 + 1 * p.val = t.val * 2000 + p.val; omega
    | ⟨1, _⟩ => show win7_2.index t (1 : Fin 2) * 1 + 1 * 0 = 0; omega
  · show V c main_v32 (((cfg7.win 3).blk t).view.emb (ix2 (0 : Fin 1) k)) = V c main_v32 (ix2 (0 : Fin 1) k)
    refine congrArg _ (funext fun a => Fin.ext ?_)
    match a with
    | ⟨0, _⟩ => show win7_3.index t (0 : Fin 2) * 1 + 1 * 0 = 0; omega
    | ⟨1, _⟩ => show win7_3.index t (1 : Fin 2) * 64 + 1 * k.val = k.val; omega

/-- An index of the output array lies in grid point t's block iff each coordinate lies in the block's range. -/
theorem mem_block (t : Fin cfg7.N) (i : S50000x64.Idx) :
    i ∈ ((cfg7.win 4).blk t).view.set ↔ ∀ a : Fin 2, win7_4.index t a * S2000x64.size a ≤ (i a).val ∧ (i a).val < win7_4.index t a * S2000x64.size a + S2000x64.size a := by
  show i ∈ ((View.whole main_v92).slice (win7_4.rect t)).set ↔ _
  rw [View.set_slice_whole, Rect.mem_set_unit]
  exact Iff.rfl

/-- Row r of the output lies in the block of grid point r / 2000: the 25 blocks cover the array. -/
theorem covered (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  obtain ⟨t, ht⟩ := block_onto ⟨(i 0).val / 2000, by omega⟩
  have q0 : win7_4.index t (0 : Fin 2) = (i 0).val / 2000 := congrFun ht 0
  have q1 : win7_4.index t (1 : Fin 2) = 0 := congrFun ht 1
  refine ⟨t, flush7_4 t, ?_⟩
  rw [mem_block]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 64 ≤ (i 1).val ∧ (i 1).val < win7_4.index t (1 : Fin 2) * 64 + 64; omega

/-- The output array after the region is the combination of the four arrays as the region found them. -/
theorem whole (c : Dev nD) :
    (dat7 V c).arrAt 4 cfg7.N = combine (N := 50000) (K := 64) (V c main_v91) (V c main_v78) (V c main_v30) (V c main_v32) :=
  (dat7 V c).arrAt_eq_of_cover 4 _ (fun t _ => written_back V c t) covered

end Cert.KernelIdeal.Combine7

end
-- ==== Proof.Combine9.lean ====
/-
  The fifth layer's combination max ((agg + h · d) + b) 0, computed one block of 2000 rows per grid point.

  At grid point t the body loads rows 2000·t … 2000·t + 1999 of the aggregated array, of the product h and of the
  one-column array d of self-loop weights, and the one-row bias b; it repeats the column along the rows and the row down
  the rows, adds, and takes the maximum with zero. Entry (r, k) of the result reads entry (r, k) of agg and h, entry
  (r, 0) of d and entry (0, k) of b — row r only — so the 25 blocks together are the combination of the whole arrays.
  Both sides are the same expression entry by entry; nothing needs to be finite.
-/
import proofs.«146099_j20693152432417_1_alg».proof.Proof.Gen.KernelIdeal.Frame
import proofs.«146099_j20693152432417_1_alg».proof.Proof.LibGcnRows
import proofs.«146099_j20693152432417_1_alg».proof.Proof.LibColumnLayout
import Idealize.ShloMosaic.Lib.Pipeline.Value
import Idealize.ShloMosaic.Lib.ValueIdx
import Idealize.ShloMosaic.Lib.ValueLayout

noncomputable section

namespace Cert.KernelIdeal.Combine9

open Cert.KernelIdeal Cert.KernelIdeal.Gen Idealize.ShloMosaic Idealize.ShloMosaic.ValueIdx Idealize.ShloMosaic.TcCoe Idealize.SL.Sem
open Cert.Gcn (combine)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the combination of the four loaded blocks. -/
theorem stored_apply (x0 x1 : Vec Ideal S2000x64 .f32) (x2 : Vec Ideal S2000x1 .f32) (x3 : Vec Ideal S1x64 .f32)
    (p : Fin 2000) (k : Fin 64) :
    k9_pay1 x0 x1 x2 x3 (ix2 p k) = combine (N := 2000) (K := 64) x0 x1 x2 x3 (ix2 p k) := by
  unfold k9_pay1
  simp only [shapeCast_self]
  rw [Cert.Gcn.combine_apply]
  show max ((x0 (ix2 p k) + x1 (ix2 p k) * broadcastTo S2000x64 x2 broadcasts_S2000x1_S2000x64 (ix2 p k))
      + broadcastTo S2000x64 x3 broadcasts_S1x64_S2000x64 (ix2 p k)) (Ideal.ofBits .f32 0x00000000#32) = _
  rw [ColumnLayout.broadcastTo_a1_ab_apply, broadcastTo_1b_ab_apply]

/-- The printed index maps over the 25 grid points: the three row-blocked inputs and the output sit at block row t,
    the bias row is one block. -/
theorem block_indices : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 ∧ t.val < 25 :=
  (by decide +kernel : ∀ t : Fin grid9.N, _)

/-- Every block row 0 … 24 of the output is some grid point's. -/
theorem block_onto : ∀ q : Fin 25, ∃ t : Fin cfg9.N, win9_4.index t = ![q.val, 0] :=
  (by decide +kernel : ∀ q : Fin 25, ∃ t : Fin grid9.N, win9_4.index t = ![q.val, 0])

/-- What grid point t writes back is block t of the combination of the whole arrays. -/
theorem written_back (c : Dev nD) (t : Fin cfg9.N) :
    (dat9 V c).flushed 4 t = ((cfg9.win 4).blk t).view.read (Elt Ideal)
      (combine (N := 50000) (K := 64) (V c main_v106) (V c main_v93) (V c main_v30) (V c main_v32)) := by
  show (cfg9.win 4).cut (grid9.coords t) ((dat9 V c).after 4 t) = _
  rw [after9_4]
  unfold out9_4
  rw [View.canon_unit_zero zero_offsets]
  simp only [View.ld_unit_zero (S := S2000x64) zero_offsets, View.ld_unit_zero (S := S2000x1) zero_offsets,
    View.ld_unit_zero (S := S1x64) zero_offsets]
  obtain ⟨e0, e1, e2, e3, e4, e5, e6, e7, e8, e9, ht⟩ := block_indices t
  funext j
  obtain ⟨p, k, rfl⟩ : ∃ (p : Fin 2000) (k : Fin 64), j = ix2 p k := ⟨j 0, j 1, eq_ix2 j⟩
  have hp : p.val < 2000 := p.isLt
  have hrow : ((cfg9.win 4).blk t).view.emb (ix2 p k) = ix2 (⟨t.val * 2000 + p.val, by omega⟩ : Fin 50000) k := by
    funext a; apply Fin.ext
    match a with
    | ⟨0, _⟩ => show win9_4.index t (0 : Fin 2) * 2000 + 1 * p.val = t.val * 2000 + p.val; omega
    | ⟨1, _⟩ => show win9_4.index t (1 : Fin 2) * 64 + 1 * k.val = k.val; omega
  show k9_pay1 (fun y => V c main_v106 (((cfg9.win 0).blk t).view.emb y)) (fun y => V c main_v93 (((cfg9.win 1).blk t).view.emb y))
      (fun y => V c main_v30 (((cfg9.win 2).blk t).view.emb y)) (fun y => V c main_v32 (((cfg9.win 3).blk t).view.emb y)) (ix2 p k)
    = combine (N := 50000) (K := 64) (V c main_v106) (V c main_v93) (V c main_v30) (V c main_v32) (((cfg9.win 4).blk t).view.emb (ix2 p k))
  rw [hrow]
  refine (stored_apply _ _ _ _ p k).trans (Cert.Gcn.combine_congr _ _ _ _ _ _ _ _ _ p k ?_ ?_ ?_ ?_)
  · show V c main_v106 (((cfg9.win 0).blk t).view.emb (ix2 p k)) = V c main_v106 (ix2 (⟨t.val * 2000 + p.val, by omega⟩ : Fin 50000) k)
    refine congrArg _ (funext fun a => Fin.ext ?_)
    match a with
    | ⟨0, _⟩ => show win9_0.index t (0 : Fin 2) * 2000 + 1 * p.val = t.val * 2000 + p.val; omega
    | ⟨1, _⟩ => show win9_0.index t (1 : Fin 2) * 64 + 1 * k.val = k.val; omega
  · show V c main_v93 (((cfg9.win 1).blk t).view.emb (ix2 p k)) = V c main_v93 (ix2 (⟨t.val * 2000 + p.val, by omega⟩ : Fin 50000) k)
    refine congrArg _ (funext fun a => Fin.ext ?_)
    match a with
    | ⟨0, _⟩ => show win9_1.index t (0 : Fin 2) * 2000 + 1 * p.val = t.val * 2000 + p.val; omega
    | ⟨1, _⟩ => show win9_1.index t (1 : Fin 2) * 64 + 1 * k.val = k.val; omega
  · show V c main_v30 (((cfg9.win 2).blk t).view.emb (ix2 p (0 : Fin 1))) = V c main_v30 (ix2 (⟨t.val * 2000 + p.val, by omega⟩ : Fin 50000) (0 : Fin 1))
    refine congrArg _ (funext fun a => Fin.ext ?_)
    match a with
    | ⟨0, _⟩ => show win9_2.index t (0 : Fin 2) * 2000 + 1 * p.val = t.val * 2000 + p.val; omega
    | ⟨1, _⟩ => show win9_2.index t (1 : Fin 2) * 1 + 1 * 0 = 0; omega
  · show V c main_v32 (((cfg9.win 3).blk t).view.emb (ix2 (0 : Fin 1) k)) = V c main_v32 (ix2 (0 : Fin 1) k)
    refine congrArg _ (funext fun a => Fin.ext ?_)
    match a with
    | ⟨0, _⟩ => show win9_3.index t (0 : Fin 2) * 1 + 1 * 0 = 0; omega
    | ⟨1, _⟩ => show win9_3.index t (1 : Fin 2) * 64 + 1 * k.val = k.val; omega

/-- An index of the output array lies in grid point t's block iff each coordinate lies in the block's range. -/
theorem mem_block (t : Fin cfg9.N) (i : S50000x64.Idx) :
    i ∈ ((cfg9.win 4).blk t).view.set ↔ ∀ a : Fin 2, win9_4.index t a * S2000x64.size a ≤ (i a).val ∧ (i a).val < win9_4.index t a * S2000x64.size a + S2000x64.size a := by
  show i ∈ ((View.whole main_v107).slice (win9_4.rect t)).set ↔ _
  rw [View.set_slice_whole, Rect.mem_set_unit]
  exact Iff.rfl

/-- Row r of the output lies in the block of grid point r / 2000: the 25 blocks cover the array. -/
theorem covered (i : S50000x64.Idx) :
    ∃ t : Fin cfg9.N, (cfg9.win 4).flush t = true ∧ i ∈ ((cfg9.win 4).blk t).view.set := by
  have hi0 : (i 0).val < 50000 := (i 0).isLt
  have hi1 : (i 1).val < 64 := (i 1).isLt
  obtain ⟨t, ht⟩ := block_onto ⟨(i 0).val / 2000, by omega⟩
  have q0 : win9_4.index t (0 : Fin 2) = (i 0).val / 2000 := congrFun ht 0
  have q1 : win9_4.index t (1 : Fin 2) = 0 := congrFun ht 1
  refine ⟨t, flush9_4 t, ?_⟩
  rw [mem_block]
  intro a
  match a with
  | ⟨0, _⟩ => show win9_4.index t (0 : Fin 2) * 2000 ≤ (i 0).val ∧ (i 0).val < win9_4.index t (0 : Fin 2) * 2000 + 2000; omega
  | ⟨1, _⟩ => show win9_4.index t (1 : Fin 2) * 64 ≤ (i 1).val ∧ (i 1).val < win9_4.index t (1 : Fin 2) * 64 + 64; omega

/-- The output array after the region is the combination of the four arrays as the region found them. -/
theorem whole (c : Dev nD) :
    (dat9 V c).arrAt 4 cfg9.N = combine (N := 50000) (K := 64) (V c main_v106) (V c main_v93) (V c main_v30) (V c main_v32) :=
  (dat9 V c).arrAt_eq_of_cover 4 _ (fun t _ => written_back V c t) covered

end Cert.KernelIdeal.Combine9

end
-- ==== Proof.Network.lean ====
/-
  The kernel program's result, walked through its seventeen segments.

  Each matrix-product region leaves the product of the arrays it found; each stretch of host operations between the
  regions is the aggregation over the edges of that product; each combining region leaves the combination of what it
  found. The buffers computed once at the start (the edges' endpoints, the edge weights, the column of self-loop
  weights, the two bias rows) and the argument arrays are written by no later segment, so every later segment finds
  them as the first host stretch left them. Put together, the array after each combining region is one layer of the
  array after the previous one, and the result is the read-out of the fifth.
-/
import proofs.«146099_j20693152432417_1_alg».proof.Proof.Fold
import proofs.«146099_j20693152432417_1_alg».proof.Proof.Net
import proofs.«146099_j20693152432417_1_alg».proof.Proof.Product0
import proofs.«146099_j20693152432417_1_alg».proof.Proof.Product2
import proofs.«146099_j20693152432417_1_alg».proof.Proof.Product4
import proofs.«146099_j20693152432417_1_alg».proof.Proof.Product6
import proofs.«146099_j20693152432417_1_alg».proof.Proof.Product8
import proofs.«146099_j20693152432417_1_alg».proof.Proof.Combine1
import proofs.«146099_j20693152432417_1_alg».proof.Proof.Combine3
import proofs.«146099_j20693152432417_1_alg».proof.Proof.Combine5
import proofs.«146099_j20693152432417_1_alg».proof.Proof.Combine7
import proofs.«146099_j20693152432417_1_alg».proof.Proof.Combine9

noncomputable section

namespace Cert.KernelIdeal.Network

open Cert.KernelIdeal Cert.KernelIdeal.Gen Idealize.ShloMosaic Idealize.ShloMosaic.TcCoe Idealize.SL.Sem
open Cert.ReferenceIdeal.Net (aggregate layer readout net)
open Cert.Gcn (combine)
open Cert.Dense (rowsTimes)

variable (m : (ℓ : Loc nD τ sig) → Buf (Elt Ideal) ℓ) (ρ : Dev nD → PrngReg) (c : Dev nD)

/-! ## Equal operands, equal results (over plain variables: a boundary's contents are never matched against) -/

theorem rowsTimes_of_eq {M K N : Nat} {a a' : (⟨2, ![M, K]⟩ : Shape).Idx → EReal} {w w' : (⟨2, ![K, N]⟩ : Shape).Idx → EReal} (ea : a = a') (ew : w = w') :
    rowsTimes a w = rowsTimes a' w' := by rw [ea, ew]

theorem combine_of_eq {N K : Nat} {a a' h h' : (⟨2, ![N, K]⟩ : Shape).Idx → EReal} {d d' : (⟨2, ![N, 1]⟩ : Shape).Idx → EReal} {b b' : (⟨2, ![1, K]⟩ : Shape).Idx → EReal}
    (ea : a = a') (eh : h = h') (ed : d = d') (eb : b = b') : combine a h d b = combine a' h' d' b' := by rw [ea, eh, ed, eb]

theorem aggregate_of_eq {s s' t t' : Cert.ReferenceIdeal.Net.EdgeEnds} {e e' : Cert.ReferenceIdeal.Net.EdgeWeights}
    {h h' : Cert.ReferenceIdeal.Net.Features} (es : s = s') (et : t = t') (ee : e = e') (eh : h = h') :
    aggregate s t e h = aggregate s' t' e' h' := by rw [es, et, ee, eh]

theorem layer_of_eq {K : Nat} (s t : Cert.ReferenceIdeal.Net.EdgeEnds) (e : Cert.ReferenceIdeal.Net.EdgeWeights) (d : (⟨2, ![50000, 1]⟩ : Shape).Idx → EReal)
    {h h' : (⟨2, ![50000, K]⟩ : Shape).Idx → EReal} (w : (⟨2, ![K, 64]⟩ : Shape).Idx → EReal) (b : (⟨2, ![1, 64]⟩ : Shape).Idx → EReal) (eh : h = h') :
    layer s t e d h w b = layer s t e d h' w b := by rw [eh]

theorem readout_of_eq {g g' : IVec Cert.ReferenceIdeal.S50000 32} {wl wl' : FVec Ideal Cert.ReferenceIdeal.S64x1 .f32}
    {bl bl' : FVec Ideal Cert.ReferenceIdeal.S1 .f32} {h h' : Cert.ReferenceIdeal.Net.Features}
    (eg : g = g') (ew : wl = wl') (eb : bl = bl') (eh : h = h') : readout g wl bl h = readout g' wl' bl' h' := by rw [eg, ew, eb, eh]

/-! ## The host stretches between the regions, over ANY contents found at their start

Each of the five stretches after a product region aggregates that product over the edges; the last stretch is the
read-out. Stated over a variable for the contents, so that nothing of a particular boundary is looked into. -/

theorem stretch_aggregates1 (F : Valuation τ sig (Elt Ideal)) :
    StableHlo.after hostOps1 F (Proc.devRef .tc main_v46)
      = aggregate (F (Proc.devRef .tc main_v1)) (F (Proc.devRef .tc main_v3)) (F (Proc.devRef .tc main_v28)) (F (Proc.devRef .tc main_v33)) := by
  after_results_simp
  rfl

theorem stretch_aggregates2 (F : Valuation τ sig (Elt Ideal)) :
    StableHlo.after hostOps3 F (Proc.devRef .tc main_v61)
      = aggregate (F (Proc.devRef .tc main_v1)) (F (Proc.devRef .tc main_v3)) (F (Proc.devRef .tc main_v28)) (F (Proc.devRef .tc main_v48)) := by
  after_results_simp
  rfl

theorem stretch_aggregates3 (F : Valuation τ sig (Elt Ideal)) :
    StableHlo.after hostOps5 F (Proc.devRef .tc main_v76)
      = aggregate (F (Proc.devRef .tc main_v1)) (F (Proc.devRef .tc main_v3)) (F (Proc.devRef .tc main_v28)) (F (Proc.devRef .tc main_v63)) := by
  after_results_simp
  rfl

theorem stretch_aggregates4 (F : Valuation τ sig (Elt Ideal)) :
    StableHlo.after hostOps7 F (Proc.devRef .tc main_v91)
      = aggregate (F (Proc.devRef .tc main_v1)) (F (Proc.devRef .tc main_v3)) (F (Proc.devRef .tc main_v28)) (F (Proc.devRef .tc main_v78)) := by
  after_results_simp
  rfl

theorem stretch_aggregates5 (F : Valuation τ sig (Elt Ideal)) :
    StableHlo.after hostOps9 F (Proc.devRef .tc main_v106)
      = aggregate (F (Proc.devRef .tc main_v1)) (F (Proc.devRef .tc main_v3)) (F (Proc.devRef .tc main_v28)) (F (Proc.devRef .tc main_v93)) := by
  after_results_simp
  rfl

theorem stretch_reads_out (F : Valuation τ sig (Elt Ideal)) :
    StableHlo.after hostOps10 F (Proc.devRef .tc main_v123)
      = readout (F (Proc.devRef .tc main_arg8)) (F (Proc.devRef .tc main_arg5)) (F (Proc.devRef .tc main_arg6)) (F (Proc.devRef .tc main_v107)) := by
  after_results_simp
  rfl

/-! ## The first layer -/

/-- Region 0 leaves the product of the input features and the first weights. -/
theorem product1 : W2 m ρ c (Proc.devRef .tc main_v33)
    = rowsTimes (M := 50000) (K := 128) (N := 64) (W1 m ρ c (Proc.devRef .tc main_arg0)) (W1 m ρ c (Proc.devRef .tc main_arg1)) :=
  (W2_arr m ρ c 2).trans (Product0.whole (V1 m ρ) c)

/-- The host stretch after it aggregates that product over the edges. -/
theorem aggregated1 : W3 m ρ c (Proc.devRef .tc main_v46)
    = aggregate (W2 m ρ c (Proc.devRef .tc main_v1)) (W2 m ρ c (Proc.devRef .tc main_v3)) (W2 m ρ c (Proc.devRef .tc main_v28)) (W2 m ρ c (Proc.devRef .tc main_v33)) := by
  exact stretch_aggregates1 (W2 m ρ c)

/-- Region 1 leaves the combination of what it finds. -/
theorem combined1 : W4 m ρ c (Proc.devRef .tc main_v47)
    = combine (N := 50000) (K := 64) (W3 m ρ c (Proc.devRef .tc main_v46)) (W3 m ρ c (Proc.devRef .tc main_v33)) (W3 m ρ c (Proc.devRef .tc main_v30)) (W3 m ρ c (Proc.devRef .tc main_v31)) :=
  (W4_arr m ρ c 4).trans (Combine1.whole (V3 m ρ) c)

/-- After region 1: the first layer of the input features. -/
theorem features1 : W4 m ρ c (Proc.devRef .tc main_v47)
    = layer (K := 128) (W1 m ρ c (Proc.devRef .tc main_v1)) (W1 m ρ c (Proc.devRef .tc main_v3)) (W1 m ρ c (Proc.devRef .tc main_v28)) (W1 m ρ c (Proc.devRef .tc main_v30)) (m ((c : Thread nD τ).loc main_arg0)) (m ((c : Thread nD τ).loc main_arg1)) (W1 m ρ c (Proc.devRef .tc main_v31)) :=
  have pr : W2 m ρ c (Proc.devRef .tc main_v33) = rowsTimes (M := 50000) (K := 128) (N := 64) (m ((c : Thread nD τ).loc main_arg0)) (m ((c : Thread nD τ).loc main_arg1)) :=
    (product1 m ρ c).trans (rowsTimes_of_eq (Fold.launch m ρ c main_arg0 (by decide)) (Fold.launch m ρ c main_arg1 (by decide)))
  have hw : W3 m ρ c (Proc.devRef .tc main_v33) = rowsTimes (M := 50000) (K := 128) (N := 64) (m ((c : Thread nD τ).loc main_arg0)) (m ((c : Thread nD τ).loc main_arg1)) :=
    (Fold.seg3 m ρ c main_v33 (by decide)).trans pr
  have ag : W3 m ρ c (Proc.devRef .tc main_v46) = aggregate (W1 m ρ c (Proc.devRef .tc main_v1)) (W1 m ρ c (Proc.devRef .tc main_v3)) (W1 m ρ c (Proc.devRef .tc main_v28))
      (rowsTimes (M := 50000) (K := 128) (N := 64) (m ((c : Thread nD τ).loc main_arg0)) (m ((c : Thread nD τ).loc main_arg1))) :=
    (aggregated1 m ρ c).trans (aggregate_of_eq (Fold.at2 m ρ c main_v1 (by decide)) (Fold.at2 m ρ c main_v3 (by decide)) (Fold.at2 m ρ c main_v28 (by decide)) pr)
  (combined1 m ρ c).trans (combine_of_eq ag hw (Fold.at3 m ρ c main_v30 (by decide)) (Fold.at3 m ρ c main_v31 (by decide)))

/-! ## The second layer -/

theorem product2 : W5 m ρ c (Proc.devRef .tc main_v48)
    = rowsTimes (M := 50000) (K := 64) (N := 64) (W4 m ρ c (Proc.devRef .tc main_v47)) (W4 m ρ c (Proc.devRef .tc main_arg3)) :=
  (W5_arr m ρ c 2).trans (Product2.whole (V4 m ρ) c)

theorem aggregated2 : W6 m ρ c (Proc.devRef .tc main_v61)
    = aggregate (W5 m ρ c (Proc.devRef .tc main_v1)) (W5 m ρ c (Proc.devRef .tc main_v3)) (W5 m ρ c (Proc.devRef .tc main_v28)) (W5 m ρ c (Proc.devRef .tc main_v48)) := by
  exact stretch_aggregates2 (W5 m ρ c)

theorem combined2 : W7 m ρ c (Proc.devRef .tc main_v62)
    = combine (N := 50000) (K := 64) (W6 m ρ c (Proc.devRef .tc main_v61)) (W6 m ρ c (Proc.devRef .tc main_v48)) (W6 m ρ c (Proc.devRef .tc main_v30)) (W6 m ρ c (Proc.devRef .tc main_v32)) :=
  (W7_arr m ρ c 4).trans (Combine3.whole (V6 m ρ) c)

/-- After region 3: one layer, with the shared weights, of the array after region 1. -/
theorem features2 : W7 m ρ c (Proc.devRef .tc main_v62)
    = layer (K := 64) (W1 m ρ c (Proc.devRef .tc main_v1)) (W1 m ρ c (Proc.devRef .tc main_v3)) (W1 m ρ c (Proc.devRef .tc main_v28)) (W1 m ρ c (Proc.devRef .tc main_v30)) (W4 m ρ c (Proc.devRef .tc main_v47)) (m ((c : Thread nD τ).loc main_arg3)) (W1 m ρ c (Proc.devRef .tc main_v32)) :=
  have pr : W5 m ρ c (Proc.devRef .tc main_v48) = rowsTimes (M := 50000) (K := 64) (N := 64) (W4 m ρ c (Proc.devRef .tc main_v47)) (m ((c : Thread nD τ).loc main_arg3)) :=
    (product2 m ρ c).trans (rowsTimes_of_eq rfl ((Fold.at4 m ρ c main_arg3 (by decide)).trans (Fold.launch m ρ c main_arg3 (by decide))))
  have hw : W6 m ρ c (Proc.devRef .tc main_v48) = rowsTimes (M := 50000) (K := 64) (N := 64) (W4 m ρ c (Proc.devRef .tc main_v47)) (m ((c : Thread nD τ).loc main_arg3)) :=
    (Fold.seg6 m ρ c main_v48 (by decide)).trans pr
  have ag : W6 m ρ c (Proc.devRef .tc main_v61) = aggregate (W1 m ρ c (Proc.devRef .tc main_v1)) (W1 m ρ c (Proc.devRef .tc main_v3)) (W1 m ρ c (Proc.devRef .tc main_v28)) (rowsTimes (M := 50000) (K := 64) (N := 64) (W4 m ρ c (Proc.devRef .tc main_v47)) (m ((c : Thread nD τ).loc main_arg3))) :=
    (aggregated2 m ρ c).trans (aggregate_of_eq (Fold.at5 m ρ c main_v1 (by decide)) (Fold.at5 m ρ c main_v3 (by decide)) (Fold.at5 m ρ c main_v28 (by decide)) pr)
  (combined2 m ρ c).trans (combine_of_eq ag hw (Fold.at6 m ρ c main_v30 (by decide)) (Fold.at6 m ρ c main_v32 (by decide)))

/-! ## The third layer -/

theorem product3 : W8 m ρ c (Proc.devRef .tc main_v63)
    = rowsTimes (M := 50000) (K := 64) (N := 64) (W7 m ρ c (Proc.devRef .tc main_v62)) (W7 m ρ c (Proc.devRef .tc main_arg3)) :=
  (W8_arr m ρ c 2).trans (Product4.whole (V7 m ρ) c)

theorem aggregated3 : W9 m ρ c (Proc.devRef .tc main_v76)
    = aggregate (W8 m ρ c (Proc.devRef .tc main_v1)) (W8 m ρ c (Proc.devRef .tc main_v3)) (W8 m ρ c (Proc.devRef .tc main_v28)) (W8 m ρ c (Proc.devRef .tc main_v63)) := by
  exact stretch_aggregates3 (W8 m ρ c)

theorem combined3 : W10 m ρ c (Proc.devRef .tc main_v77)
    = combine (N := 50000) (K := 64) (W9 m ρ c (Proc.devRef .tc main_v76)) (W9 m ρ c (Proc.devRef .tc main_v63)) (W9 m ρ c (Proc.devRef .tc main_v30)) (W9 m ρ c (Proc.devRef .tc main_v32)) :=
  (W10_arr m ρ c 4).trans (Combine5.whole (V9 m ρ) c)

/-- After region 5: one layer, with the shared weights, of the array after region 3. -/
theorem features3 : W10 m ρ c (Proc.devRef .tc main_v77)
    = layer (K := 64) (W1 m ρ c (Proc.devRef .tc main_v1)) (W1 m ρ c (Proc.devRef .tc main_v3)) (W1 m ρ c (Proc.devRef .tc main_v28)) (W1 m ρ c (Proc.devRef .tc main_v30)) (W7 m ρ c (Proc.devRef .tc main_v62)) (m ((c : Thread nD τ).loc main_arg3)) (W1 m ρ c (Proc.devRef .tc main_v32)) :=
  have pr : W8 m ρ c (Proc.devRef .tc main_v63) = rowsTimes (M := 50000) (K := 64) (N := 64) (W7 m ρ c (Proc.devRef .tc main_v62)) (m ((c : Thread nD τ).loc main_arg3)) :=
    (product3 m ρ c).trans (rowsTimes_of_eq rfl ((Fold.at7 m ρ c main_arg3 (by decide)).trans (Fold.launch m ρ c main_arg3 (by decide))))
  have hw : W9 m ρ c (Proc.devRef .tc main_v63) = rowsTimes (M := 50000) (K := 64) (N := 64) (W7 m ρ c (Proc.devRef .tc main_v62)) (m ((c : Thread nD τ).loc main_arg3)) :=
    (Fold.seg9 m ρ c main_v63 (by decide)).trans pr
  have ag : W9 m ρ c (Proc.devRef .tc main_v76) = aggregate (W1 m ρ c (Proc.devRef .tc main_v1)) (W1 m ρ c (Proc.devRef .tc main_v3)) (W1 m ρ c (Proc.devRef .tc main_v28)) (rowsTimes (M := 50000) (K := 64) (N := 64) (W7 m ρ c (Proc.devRef .tc main_v62)) (m ((c : Thread nD τ).loc main_arg3))) :=
    (aggregated3 m ρ c).trans (aggregate_of_eq (Fold.at8 m ρ c main_v1 (by decide)) (Fold.at8 m ρ c main_v3 (by decide)) (Fold.at8 m ρ c main_v28 (by decide)) pr)
  (combined3 m ρ c).trans (combine_of_eq ag hw (Fold.at9 m ρ c main_v30 (by decide)) (Fold.at9 m ρ c main_v32 (by decide)))

/-! ## The fourth layer -/

theorem product4 : W11 m ρ c (Proc.devRef .tc main_v78)
    = rowsTimes (M := 50000) (K := 64) (N := 64) (W10 m ρ c (Proc.devRef .tc main_v77)) (W10 m ρ c (Proc.devRef .tc main_arg3)) :=
  (W11_arr m ρ c 2).trans (Product6.whole (V10 m ρ) c)

theorem aggregated4 : W12 m ρ c (Proc.devRef .tc main_v91)
    = aggregate (W11 m ρ c (Proc.devRef .tc main_v1)) (W11 m ρ c (Proc.devRef .tc main_v3)) (W11 m ρ c (Proc.devRef .tc main_v28)) (W11 m ρ c (Proc.devRef .tc main_v78)) := by
  exact stretch_aggregates4 (W11 m ρ c)

theorem combined4 : W13 m ρ c (Proc.devRef .tc main_v92)
    = combine (N := 50000) (K := 64) (W12 m ρ c (Proc.devRef .tc main_v91)) (W12 m ρ c (Proc.devRef .tc main_v78)) (W12 m ρ c (Proc.devRef .tc main_v30)) (W12 m ρ c (Proc.devRef .tc main_v32)) :=
  (W13_arr m ρ c 4).trans (Combine7.whole (V12 m ρ) c)

/-- After region 7: one layer, with the shared weights, of the array after region 5. -/
theorem features4 : W13 m ρ c (Proc.devRef .tc main_v92)
    = layer (K := 64) (W1 m ρ c (Proc.devRef .tc main_v1)) (W1 m ρ c (Proc.devRef .tc main_v3)) (W1 m ρ c (Proc.devRef .tc main_v28)) (W1 m ρ c (Proc.devRef .tc main_v30)) (W10 m ρ c (Proc.devRef .tc main_v77)) (m ((c : Thread nD τ).loc main_arg3)) (W1 m ρ c (Proc.devRef .tc main_v32)) :=
  have pr : W11 m ρ c (Proc.devRef .tc main_v78) = rowsTimes (M := 50000) (K := 64) (N := 64) (W10 m ρ c (Proc.devRef .tc main_v77)) (m ((c : Thread nD τ).loc main_arg3)) :=
    (product4 m ρ c).trans (rowsTimes_of_eq rfl ((Fold.at10 m ρ c main_arg3 (by decide)).trans (Fold.launch m ρ c main_arg3 (by decide))))
  have hw : W12 m ρ c (Proc.devRef .tc main_v78) = rowsTimes (M := 50000) (K := 64) (N := 64) (W10 m ρ c (Proc.devRef .tc main_v77)) (m ((c : Thread nD τ).loc main_arg3)) :=
    (Fold.seg12 m ρ c main_v78 (by decide)).trans pr
  have ag : W12 m ρ c (Proc.devRef .tc main_v91) = aggregate (W1 m ρ c (Proc.devRef .tc main_v1)) (W1 m ρ c (Proc.devRef .tc main_v3)) (W1 m ρ c (Proc.devRef .tc main_v28)) (rowsTimes (M := 50000) (K := 64) (N := 64) (W10 m ρ c (Proc.devRef .tc main_v77)) (m ((c : Thread nD τ).loc main_arg3))) :=
    (aggregated4 m ρ c).trans (aggregate_of_eq (Fold.at11 m ρ c main_v1 (by decide)) (Fold.at11 m ρ c main_v3 (by decide)) (Fold.at11 m ρ c main_v28 (by decide)) pr)
  (combined4 m ρ c).trans (combine_of_eq ag hw (Fold.at12 m ρ c main_v30 (by decide)) (Fold.at12 m ρ c main_v32 (by decide)))

/-! ## The fifth layer -/

theorem product5 : W14 m ρ c (Proc.devRef .tc main_v93)
    = rowsTimes (M := 50000) (K := 64) (N := 64) (W13 m ρ c (Proc.devRef .tc main_v92)) (W13 m ρ c (Proc.devRef .tc main_arg3)) :=
  (W14_arr m ρ c 2).trans (Product8.whole (V13 m ρ) c)

theorem aggregated5 : W15 m ρ c (Proc.devRef .tc main_v106)
    = aggregate (W14 m ρ c (Proc.devRef .tc main_v1)) (W14 m ρ c (Proc.devRef .tc main_v3)) (W14 m ρ c (Proc.devRef .tc main_v28)) (W14 m ρ c (Proc.devRef .tc main_v93)) := by
  exact stretch_aggregates5 (W14 m ρ c)

theorem combined5 : W16 m ρ c (Proc.devRef .tc main_v107)
    = combine (N := 50000) (K := 64) (W15 m ρ c (Proc.devRef .tc main_v106)) (W15 m ρ c (Proc.devRef .tc main_v93)) (W15 m ρ c (Proc.devRef .tc main_v30)) (W15 m ρ c (Proc.devRef .tc main_v32)) :=
  (W16_arr m ρ c 4).trans (Combine9.whole (V15 m ρ) c)

/-- After region 9: one layer, with the shared weights, of the array after region 7. -/
theorem features5 : W16 m ρ c (Proc.devRef .tc main_v107)
    = layer (K := 64) (W1 m ρ c (Proc.devRef .tc main_v1)) (W1 m ρ c (Proc.devRef .tc main_v3)) (W1 m ρ c (Proc.devRef .tc main_v28)) (W1 m ρ c (Proc.devRef .tc main_v30)) (W13 m ρ c (Proc.devRef .tc main_v92)) (m ((c : Thread nD τ).loc main_arg3)) (W1 m ρ c (Proc.devRef .tc main_v32)) :=
  have pr : W14 m ρ c (Proc.devRef .tc main_v93) = rowsTimes (M := 50000) (K := 64) (N := 64) (W13 m ρ c (Proc.devRef .tc main_v92)) (m ((c : Thread nD τ).loc main_arg3)) :=
    (product5 m ρ c).trans (rowsTimes_of_eq rfl ((Fold.at13 m ρ c main_arg3 (by decide)).trans (Fold.launch m ρ c main_arg3 (by decide))))
  have hw : W15 m ρ c (Proc.devRef .tc main_v93) = rowsTimes (M := 50000) (K := 64) (N := 64) (W13 m ρ c (Proc.devRef .tc main_v92)) (m ((c : Thread nD τ).loc main_arg3)) :=
    (Fold.seg15 m ρ c main_v93 (by decide)).trans pr
  have ag : W15 m ρ c (Proc.devRef .tc main_v106) = aggregate (W1 m ρ c (Proc.devRef .tc main_v1)) (W1 m ρ c (Proc.devRef .tc main_v3)) (W1 m ρ c (Proc.devRef .tc main_v28)) (rowsTimes (M := 50000) (K := 64) (N := 64) (W13 m ρ c (Proc.devRef .tc main_v92)) (m ((c : Thread nD τ).loc main_arg3))) :=
    (aggregated5 m ρ c).trans (aggregate_of_eq (Fold.at14 m ρ c main_v1 (by decide)) (Fold.at14 m ρ c main_v3 (by decide)) (Fold.at14 m ρ c main_v28 (by decide)) pr)
  (combined5 m ρ c).trans (combine_of_eq ag hw (Fold.at15 m ρ c main_v30 (by decide)) (Fold.at15 m ρ c main_v32 (by decide)))

/-! ## The read-out -/

/-- The last host stretch is the read-out of what region 9 left. -/
theorem read_out : W17 m ρ c (Proc.devRef .tc main_v123)
    = readout (W16 m ρ c (Proc.devRef .tc main_arg8)) (W16 m ρ c (Proc.devRef .tc main_arg5)) (W16 m ρ c (Proc.devRef .tc main_arg6)) (W16 m ρ c (Proc.devRef .tc main_v107)) := by
  exact stretch_reads_out (W16 m ρ c)

/-- The result buffer at the last boundary is the network of the arrays the first host stretch left and of the
    argument arrays. -/
theorem result : W17 m ρ c (Proc.devRef .tc main_v123)
    = net (W1 m ρ c (Proc.devRef .tc main_v1)) (W1 m ρ c (Proc.devRef .tc main_v3)) (W1 m ρ c (Proc.devRef .tc main_v28)) (W1 m ρ c (Proc.devRef .tc main_v30)) (m ((c : Thread nD τ).loc main_arg0)) (m ((c : Thread nD τ).loc main_arg1)) (W1 m ρ c (Proc.devRef .tc main_v31)) (m ((c : Thread nD τ).loc main_arg3)) (W1 m ρ c (Proc.devRef .tc main_v32))
        (m ((c : Thread nD τ).loc main_arg8)) (m ((c : Thread nD τ).loc main_arg5)) (m ((c : Thread nD τ).loc main_arg6)) :=
  have f2 : W7 m ρ c (Proc.devRef .tc main_v62) = layer (K := 64) (W1 m ρ c (Proc.devRef .tc main_v1)) (W1 m ρ c (Proc.devRef .tc main_v3)) (W1 m ρ c (Proc.devRef .tc main_v28)) (W1 m ρ c (Proc.devRef .tc main_v30)) (layer (K := 128) (W1 m ρ c (Proc.devRef .tc main_v1)) (W1 m ρ c (Proc.devRef .tc main_v3)) (W1 m ρ c (Proc.devRef .tc main_v28)) (W1 m ρ c (Proc.devRef .tc main_v30)) (m ((c : Thread nD τ).loc main_arg0)) (m ((c : Thread nD τ).loc main_arg1)) (W1 m ρ c (Proc.devRef .tc main_v31))) (m ((c : Thread nD τ).loc main_arg3)) (W1 m ρ c (Proc.devRef .tc main_v32)) :=
    (features2 m ρ c).trans (layer_of_eq (W1 m ρ c (Proc.devRef .tc main_v1)) (W1 m ρ c (Proc.devRef .tc main_v3)) (W1 m ρ c (Proc.devRef .tc main_v28)) (W1 m ρ c (Proc.devRef .tc main_v30)) (m ((c : Thread nD τ).loc main_arg3)) (W1 m ρ c (Proc.devRef .tc main_v32)) (features1 m ρ c))
  have f3 : W10 m ρ c (Proc.devRef .tc main_v77) = layer (K := 64) (W1 m ρ c (Proc.devRef .tc main_v1)) (W1 m ρ c (Proc.devRef .tc main_v3)) (W1 m ρ c (Proc.devRef .tc main_v28)) (W1 m ρ c (Proc.devRef .tc main_v30)) (layer (K := 64) (W1 m ρ c (Proc.devRef .tc main_v1)) (W1 m ρ c (Proc.devRef .tc main_v3)) (W1 m ρ c (Proc.devRef .tc main_v28)) (W1 m ρ c (Proc.devRef .tc main_v30)) (layer (K := 128) (W1 m ρ c (Proc.devRef .tc main_v1)) (W1 m ρ c (Proc.devRef .tc main_v3)) (W1 m ρ c (Proc.devRef .tc main_v28)) (W1 m ρ c (Proc.devRef .tc main_v30)) (m ((c : Thread nD τ).loc main_arg0)) (m ((c : Thread nD τ).loc main_arg1)) (W1 m ρ c (Proc.devRef .tc main_v31))) (m ((c : Thread nD τ).loc main_arg3)) (W1 m ρ c (Proc.devRef .tc main_v32))) (m ((c : Thread nD τ).loc main_arg3)) (W1 m ρ c (Proc.devRef .tc main_v32)) :=
    (features3 m ρ c).trans (layer_of_eq (W1 m ρ c (Proc.devRef .tc main_v1)) (W1 m ρ c (Proc.devRef .tc main_v3)) (W1 m ρ c (Proc.devRef .tc main_v28)) (W1 m ρ c (Proc.devRef .tc main_v30)) (m ((c : Thread nD τ).loc main_arg3)) (W1 m ρ c (Proc.devRef .tc main_v32)) f2)
  have f4 : W13 m ρ c (Proc.devRef .tc main_v92) = layer (K := 64) (W1 m ρ c (Proc.devRef .tc main_v1)) (W1 m ρ c (Proc.devRef .tc main_v3)) (W1 m ρ c (Proc.devRef .tc main_v28)) (W1 m ρ c (Proc.devRef .tc main_v30)) (layer (K := 64) (W1 m ρ c (Proc.devRef .tc main_v1)) (W1 m ρ c (Proc.devRef .tc main_v3)) (W1 m ρ c (Proc.devRef .tc main_v28)) (W1 m ρ c (Proc.devRef .tc main_v30)) (layer (K := 64) (W1 m ρ c (Proc.devRef .tc main_v1)) (W1 m ρ c (Proc.devRef .tc main_v3)) (W1 m ρ c (Proc.devRef .tc main_v28)) (W1 m ρ c (Proc.devRef .tc main_v30)) (layer (K := 128) (W1 m ρ c (Proc.devRef .tc main_v1)) (W1 m ρ c (Proc.devRef .tc main_v3)) (W1 m ρ c (Proc.devRef .tc main_v28)) (W1 m ρ c (Proc.devRef .tc main_v30)) (m ((c : Thread nD τ).loc main_arg0)) (m ((c : Thread nD τ).loc main_arg1)) (W1 m ρ c (Proc.devRef .tc main_v31))) (m ((c : Thread nD τ).loc main_arg3)) (W1 m ρ c (Proc.devRef .tc main_v32))) (m ((c : Thread nD τ).loc main_arg3)) (W1 m ρ c (Proc.devRef .tc main_v32))) (m ((c : Thread nD τ).loc main_arg3)) (W1 m ρ c (Proc.devRef .tc main_v32)) :=
    (features4 m ρ c).trans (layer_of_eq (W1 m ρ c (Proc.devRef .tc main_v1)) (W1 m ρ c (Proc.devRef .tc main_v3)) (W1 m ρ c (Proc.devRef .tc main_v28)) (W1 m ρ c (Proc.devRef .tc main_v30)) (m ((c : Thread nD τ).loc main_arg3)) (W1 m ρ c (Proc.devRef .tc main_v32)) f3)
  have f5 : W16 m ρ c (Proc.devRef .tc main_v107) = layer (K := 64) (W1 m ρ c (Proc.devRef .tc main_v1)) (W1 m ρ c (Proc.devRef .tc main_v3)) (W1 m ρ c (Proc.devRef .tc main_v28)) (W1 m ρ c (Proc.devRef .tc main_v30)) (layer (K := 64) (W1 m ρ c (Proc.devRef .tc main_v1)) (W1 m ρ c (Proc.devRef .tc main_v3)) (W1 m ρ c (Proc.devRef .tc main_v28)) (W1 m ρ c (Proc.devRef .tc main_v30)) (layer (K := 64) (W1 m ρ c (Proc.devRef .tc main_v1)) (W1 m ρ c (Proc.devRef .tc main_v3)) (W1 m ρ c (Proc.devRef .tc main_v28)) (W1 m ρ c (Proc.devRef .tc main_v30)) (layer (K := 64) (W1 m ρ c (Proc.devRef .tc main_v1)) (W1 m ρ c (Proc.devRef .tc main_v3)) (W1 m ρ c (Proc.devRef .tc main_v28)) (W1 m ρ c (Proc.devRef .tc main_v30)) (layer (K := 128) (W1 m ρ c (Proc.devRef .tc main_v1)) (W1 m ρ c (Proc.devRef .tc main_v3)) (W1 m ρ c (Proc.devRef .tc main_v28)) (W1 m ρ c (Proc.devRef .tc main_v30)) (m ((c : Thread nD τ).loc main_arg0)) (m ((c : Thread nD τ).loc main_arg1)) (W1 m ρ c (Proc.devRef .tc main_v31))) (m ((c : Thread nD τ).loc main_arg3)) (W1 m ρ c (Proc.devRef .tc main_v32))) (m ((c : Thread nD τ).loc main_arg3)) (W1 m ρ c (Proc.devRef .tc main_v32))) (m ((c : Thread nD τ).loc main_arg3)) (W1 m ρ c (Proc.devRef .tc main_v32))) (m ((c : Thread nD τ).loc main_arg3)) (W1 m ρ c (Proc.devRef .tc main_v32)) :=
    (features5 m ρ c).trans (layer_of_eq (W1 m ρ c (Proc.devRef .tc main_v1)) (W1 m ρ c (Proc.devRef .tc main_v3)) (W1 m ρ c (Proc.devRef .tc main_v28)) (W1 m ρ c (Proc.devRef .tc main_v30)) (m ((c : Thread nD τ).loc main_arg3)) (W1 m ρ c (Proc.devRef .tc main_v32)) f4)
  (read_out m ρ c).trans (readout_of_eq
    ((Fold.at16 m ρ c main_arg8 (by decide)).trans (Fold.launch m ρ c main_arg8 (by decide)))
    ((Fold.at16 m ρ c main_arg5 (by decide)).trans (Fold.launch m ρ c main_arg5 (by decide)))
    ((Fold.at16 m ρ c main_arg6 (by decide)).trans (Fold.launch m ρ c main_arg6 (by decide))) f5)

end Cert.KernelIdeal.Network

end
-- ==== Proof.Inputs.lean ====
/-
  What the first stretch of host operations leaves, as functions of the argument arrays.

  Before the first region the kernel program computes, from the edge list and the two bias vectors, the edges' endpoints,
  each node's degree and its inverse square root, the edge weights, the self-loop weights as a one-column array, and the
  two bias vectors as one-row arrays — by the same host operations, in the same order, as the reference program. Each
  array is therefore the reference's own stage of the same arguments.
-/
import proofs.«146099_j20693152432417_1_alg».proof.Proof.Fold
import proofs.«146099_j20693152432417_1_alg».proof.Proof.Gen.ReferenceIdeal.Read

noncomputable section

namespace Cert.KernelIdeal.Inputs

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The edges' source nodes. -/
theorem sources : W1 m ρ c (Proc.devRef .tc main_v1) = Cert.ReferenceIdeal.Read.val_main_v1 (F := Ideal) (m ((c : Thread nD τ).loc main_arg7)) := by
  show StableHlo.after hostOps0 (W0 m ρ c) (Proc.devRef .tc main_v1) = _
  after_results_simp
  rfl

/-- The edges' target nodes. -/
theorem targets : W1 m ρ c (Proc.devRef .tc main_v3) = Cert.ReferenceIdeal.Read.val_main_v3 (F := Ideal) (m ((c : Thread nD τ).loc main_arg7)) := by
  show StableHlo.after hostOps0 (W0 m ρ c) (Proc.devRef .tc main_v3) = _
  after_results_simp
  rfl

/-- The edge weights: the product of the two endpoints' inverse square-root degrees. -/
theorem edge_weights : W1 m ρ c (Proc.devRef .tc main_v28) = Cert.ReferenceIdeal.Read.val_main_v28 (F := Ideal) (m ((c : Thread nD τ).loc main_arg7)) := by
  show StableHlo.after hostOps0 (W0 m ρ c) (Proc.devRef .tc main_v28) = _
  after_results_simp
  rfl

/-- The self-loop weights, one column. -/
theorem self_weights : W1 m ρ c (Proc.devRef .tc main_v30) = Cert.ReferenceIdeal.Read.val_main_v44 (F := Ideal) (m ((c : Thread nD τ).loc main_arg7)) := by
  show StableHlo.after hostOps0 (W0 m ρ c) (Proc.devRef .tc main_v30) = _
  after_results_simp
  rfl

/-- The first bias, one row. -/
theorem bias1 : W1 m ρ c (Proc.devRef .tc main_v31) = Cert.ReferenceIdeal.Read.val_main_v48 (F := Ideal) (m ((c : Thread nD τ).loc main_arg2)) := by
  show StableHlo.after hostOps0 (W0 m ρ c) (Proc.devRef .tc main_v31) = _
  after_results_simp
  rfl

/-- The shared bias, one row. -/
theorem bias2 : W1 m ρ c (Proc.devRef .tc main_v32) = Cert.ReferenceIdeal.Read.val_main_v70 (F := Ideal) (m ((c : Thread nD τ).loc main_arg4)) := by
  show StableHlo.after hostOps0 (W0 m ρ c) (Proc.devRef .tc main_v32) = _
  after_results_simp
  rfl

end Cert.KernelIdeal.Inputs

end
-- ==== Proof.RefStages.lean ====
/-
  The reference program's result, read layer by layer.

  The reference is a straight line of host operations. Its first rectified array is one layer of the input features;
  each later rectified array is one layer of the one before, with the shared weights; its result is the read-out of the
  last. The edges' endpoints, the edge weights, the column of self-loop weights and the two bias rows are computed
  once from the edge list and the bias vectors (each layer recomputes the column and the row by the same operations:
  the same terms).
-/
import proofs.«146099_j20693152432417_1_alg».proof.Proof.Gen.ReferenceIdeal.Read
import proofs.«146099_j20693152432417_1_alg».proof.Proof.Net

noncomputable section

namespace Cert.ReferenceIdeal.RefStages

open Cert.ReferenceIdeal Cert.ReferenceIdeal.Read Cert.ReferenceIdeal.Net Idealize.ShloMosaic

/-- The first rectified array is the first layer of the input features. -/
theorem stage1 (x0 : (⟨S50000x128, .f32⟩ : BufTy).Contents (Elt Ideal)) (x1 : (⟨S128x64, .f32⟩ : BufTy).Contents (Elt Ideal)) (x2 : (⟨S64, .f32⟩ : BufTy).Contents (Elt Ideal)) (x7 : (⟨S2x800000, .i32⟩ : BufTy).Contents (Elt Ideal)) :
    val_main_v51 (F := Ideal) x0 x1 x2 x7
      = layer (K := 128) (val_main_v1 (F := Ideal) x7) (val_main_v3 (F := Ideal) x7) (val_main_v28 (F := Ideal) x7) (val_main_v44 (F := Ideal) x7) x0 x1 (val_main_v48 (F := Ideal) x2) := by
  refine Eq.trans ?_ (host_layer128 (val_main_v1 (F := Ideal) x7) (val_main_v3 (F := Ideal) x7) (val_main_v28 (F := Ideal) x7) (val_main_v44 (F := Ideal) x7) x0 x1 (val_main_v48 (F := Ideal) x2))
  rfl

/-- The second rectified array is one layer, with the shared weights, of the one before. -/
theorem stage2 (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x7 : (⟨S2x800000, .i32⟩ : BufTy).Contents (Elt Ideal)) :
    val_main_v73 (F := Ideal) x0 x1 x2 x3 x4 x7
      = layer (K := 64) (val_main_v1 (F := Ideal) x7) (val_main_v3 (F := Ideal) x7) (val_main_v28 (F := Ideal) x7) (val_main_v44 (F := Ideal) x7) (val_main_v51 (F := Ideal) x0 x1 x2 x7) x3 (val_main_v70 (F := Ideal) x4) := by
  refine Eq.trans ?_ (host_layer64 (val_main_v1 (F := Ideal) x7) (val_main_v3 (F := Ideal) x7) (val_main_v28 (F := Ideal) x7) (val_main_v44 (F := Ideal) x7) (val_main_v51 (F := Ideal) x0 x1 x2 x7) x3 (val_main_v70 (F := Ideal) x4))
  rfl

/-- The third rectified array is one layer, with the shared weights, of the one before. -/
theorem stage3 (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x7 : (⟨S2x800000, .i32⟩ : BufTy).Contents (Elt Ideal)) :
    val_main_v95 (F := Ideal) x0 x1 x2 x3 x4 x7
      = layer (K := 64) (val_main_v1 (F := Ideal) x7) (val_main_v3 (F := Ideal) x7) (val_main_v28 (F := Ideal) x7) (val_main_v44 (F := Ideal) x7) (val_main_v73 (F := Ideal) x0 x1 x2 x3 x4 x7) x3 (val_main_v70 (F := Ideal) x4) := by
  refine Eq.trans ?_ (host_layer64 (val_main_v1 (F := Ideal) x7) (val_main_v3 (F := Ideal) x7) (val_main_v28 (F := Ideal) x7) (val_main_v44 (F := Ideal) x7) (val_main_v73 (F := Ideal) x0 x1 x2 x3 x4 x7) x3 (val_main_v70 (F := Ideal) x4))
  rfl

/-- The fourth rectified array is one layer, with the shared weights, of the one before. -/
theorem stage4 (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x7 : (⟨S2x800000, .i32⟩ : BufTy).Contents (Elt Ideal)) :
    val_main_v117 (F := Ideal) x0 x1 x2 x3 x4 x7
      = layer (K := 64) (val_main_v1 (F := Ideal) x7) (val_main_v3 (F := Ideal) x7) (val_main_v28 (F := Ideal) x7) (val_main_v44 (F := Ideal) x7) (val_main_v95 (F := Ideal) x0 x1 x2 x3 x4 x7) x3 (val_main_v70 (F := Ideal) x4) := by
  refine Eq.trans ?_ (host_layer64 (val_main_v1 (F := Ideal) x7) (val_main_v3 (F := Ideal) x7) (val_main_v28 (F := Ideal) x7) (val_main_v44 (F := Ideal) x7) (val_main_v95 (F := Ideal) x0 x1 x2 x3 x4 x7) x3 (val_main_v70 (F := Ideal) x4))
  rfl

/-- The fifth rectified array is one layer, with the shared weights, of the one before. -/
theorem stage5 (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x7 : (⟨S2x800000, .i32⟩ : BufTy).Contents (Elt Ideal)) :
    val_main_v139 (F := Ideal) x0 x1 x2 x3 x4 x7
      = layer (K := 64) (val_main_v1 (F := Ideal) x7) (val_main_v3 (F := Ideal) x7) (val_main_v28 (F := Ideal) x7) (val_main_v44 (F := Ideal) x7) (val_main_v117 (F := Ideal) x0 x1 x2 x3 x4 x7) x3 (val_main_v70 (F := Ideal) x4) := by
  refine Eq.trans ?_ (host_layer64 (val_main_v1 (F := Ideal) x7) (val_main_v3 (F := Ideal) x7) (val_main_v28 (F := Ideal) x7) (val_main_v44 (F := Ideal) x7) (val_main_v117 (F := Ideal) x0 x1 x2 x3 x4 x7) x3 (val_main_v70 (F := Ideal) x4))
  rfl

/-- The result is the read-out of the last rectified array. -/
theorem stage_out (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x800000, .i32⟩ : BufTy).Contents (Elt Ideal)) (x8 : (⟨S50000, .i32⟩ : BufTy).Contents (Elt Ideal)) :
    val_main_v155 (F := Ideal) x0 x1 x2 x3 x4 x5 x6 x7 x8 = readout x8 x5 x6 (val_main_v139 (F := Ideal) x0 x1 x2 x3 x4 x7) := rfl

/-- The reference's result is the network of its arguments. -/
theorem reference_net (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x800000, .i32⟩ : BufTy).Contents (Elt Ideal)) (x8 : (⟨S50000, .i32⟩ : BufTy).Contents (Elt Ideal)) :
    val_main_v155 (F := Ideal) x0 x1 x2 x3 x4 x5 x6 x7 x8
      = net (val_main_v1 (F := Ideal) x7) (val_main_v3 (F := Ideal) x7) (val_main_v28 (F := Ideal) x7) (val_main_v44 (F := Ideal) x7) x0 x1 (val_main_v48 (F := Ideal) x2) x3 (val_main_v70 (F := Ideal) x4) x8 x5 x6 := by
  rw [stage_out, stage5, stage4, stage3, stage2, stage1]
  rfl

end Cert.ReferenceIdeal.RefStages

end
-- ==== Proof.lean ====
/-
  The certificate of the five-layer graph-convolution kernel against its reference.

  The kernel program runs each layer's two dense parts as tiled kernels — the product h · W one block of 2000 rows at a
  time, and the combination max ((agg + hW · d) + b) 0 one block of 2000 rows at a time — and leaves the aggregation
  over the edges and the final read-out to the same host operations the reference uses. On the extended reals a block
  of rows of a product is the product of the block of rows (the same sum of the same products, entry by entry), the
  casts to a narrower float format are the identity, and the combination reads one row of each of its operands; so each
  tiled kernel leaves exactly the array the reference's host operations compute from the same operands, and the two
  results are the same function of the arguments. No step needs an entry to be finite: the precondition is never opened.

  The three frames are the generated ones (the reference's is its generated run with the result dropped); the ideal pass
  rewrote nothing, so the kernel's idealization is its own text.
-/
import proofs.«146099_j20693152432417_1_alg».proof.Defs
import proofs.«146099_j20693152432417_1_alg».proof.Proof.Gen.Kernel
import proofs.«146099_j20693152432417_1_alg».proof.Proof.Gen.Kernel.Frame
import proofs.«146099_j20693152432417_1_alg».proof.Proof.Gen.KernelIdeal
import proofs.«146099_j20693152432417_1_alg».proof.Proof.Gen.KernelIdeal.Frame
import proofs.«146099_j20693152432417_1_alg».proof.Proof.Gen.ReferenceIdeal
import proofs.«146099_j20693152432417_1_alg».proof.Proof.Gen.ReferenceIdeal.Read
import proofs.«146099_j20693152432417_1_alg».proof.Proof.Gen.Pre_finite_inputs
import proofs.«146099_j20693152432417_1_alg».proof.Proof.KernelRun
import proofs.«146099_j20693152432417_1_alg».proof.Proof.Network
import proofs.«146099_j20693152432417_1_alg».proof.Proof.Inputs
import proofs.«146099_j20693152432417_1_alg».proof.Proof.RefStages

noncomputable section

namespace Cert.Proof

open Idealize.ShloMosaic Idealize.ShloMosaic.TcCoe Idealize.SL.Sem

/-- The kernel program's result buffer at its last boundary is the reference's result stage of the same arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W17 m ρ c (Proc.devRef .tc Cert.KernelIdeal.main_v123)
      = Cert.ReferenceIdeal.Read.val_main_v155 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Network.result m ρ c, Cert.KernelIdeal.Inputs.sources m ρ c, Cert.KernelIdeal.Inputs.targets m ρ c,
    Cert.KernelIdeal.Inputs.edge_weights m ρ c, Cert.KernelIdeal.Inputs.self_weights m ρ c, Cert.KernelIdeal.Inputs.bias1 m ρ c,
    Cert.KernelIdeal.Inputs.bias2 m ρ c]
  exact (Cert.ReferenceIdeal.RefStages.reference_net _ _ _ _ _ _ _ _ _).symm

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the same result: the reference's result stage of
    the kernel program's arguments. -/
theorem algebraic : Cert.algebraic_KernelIdeal_ReferenceIdeal := by
  intro m ρ m' ρ' _ hagree
  refine ⟨fun c => Cert.ReferenceIdeal.Read.val_main_v155 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun _ h c => ⟨(h c).1.trans (kernel_result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v155_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
